-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_arg5 : FVec F S16384x4096 .f32) (main_arg6 : FVec F S16384 .f32) (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  let main_v24 : FVec F S16384x4096 .f32 := Host.absf main_arg5
  let main_cst_8 : FVec F S_ .f32 := constant S_ .f32 0x7F800000#32
  let main_v25 : FVec F S16384x4096 .f32 := broadcastInDim S16384x4096 ![] bcast_S_S16384x4096 main_cst_8
  let main_v26 : IVec S16384x4096 1 := cmpf .olt main_v24 main_v25
  let main_c_9 : IVec S_ 1 := constantI S_ 1 1#1
  let main_v27 : IVec S_ 1 := (fun x v => Host.reduce IntOp.andi x v reducesTo_S16384x4096_S_d0_1 h_S_) main_v26 main_c_9
  let main_v28 : IVec S_ 1 := andi main_v23 main_v27
  let main_v29 : FVec F S16384 .f32 := Host.absf main_arg6
  let main_cst_10 : FVec F S_ .f32 := constant S_ .f32 0x7F800000#32
  let main_v30 : FVec F S16384 .f32 := broadcastInDim S16384 ![] bcast_S_S16384 main_cst_10
  let main_v31 : IVec S16384 1 := cmpf .olt main_v29 main_v30
  let main_c_11 : IVec S_ 1 := constantI S_ 1 1#1
  let main_v32 : IVec S_ 1 := (fun x v => Host.reduce IntOp.andi x v reducesTo_S16384_S_d0 h_S_) main_v31 main_c_11
  let main_v33 : IVec S_ 1 := andi main_v28 main_v32
  main_v33

def fn {F : FTy → Type} [FloatOps F] (main_arg0 : FVec F S8192x4096 .f32) (main_arg1 : FVec F S16384x4096 .f32) (main_arg2 : FVec F S16384x4096 .f32) (main_arg3 : FVec F S16384 .f32) (main_arg4 : FVec F S16384 .f32) (main_arg5 : FVec F S16384x4096 .f32) (main_arg6 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384x4096 .f32 := Host.absf main_arg2
  let main_cst_2 : FVec F S_ .f32 := constant S_ .f32 0x7F800000#32
  let main_v10 : FVec F S16384x4096 .f32 := broadcastInDim S16384x4096 ![] bcast_S_S16384x4096 main_cst_2
  let main_v11 : IVec S16384x4096 1 := cmpf .olt main_v9 main_v10
  let main_c_3 : IVec S_ 1 := constantI S_ 1 1#1
  let main_v12 : IVec S_ 1 := (fun x v => Host.reduce IntOp.andi x v reducesTo_S16384x4096_S_d0_1 h_S_) main_v11 main_c_3
  let main_v13 : IVec S_ 1 := andi main_v8 main_v12
  let main_v14 : FVec F S16384 .f32 := Host.absf main_arg3
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_arg4 main_arg5 main_arg6 main_v13 main_v16
-- ==== Kernel.lean ====
abbrev S8192x4096 : Shape := ⟨2, ![8192, 4096]⟩
abbrev S16384x4096 : Shape := ⟨2, ![16384, 4096]⟩
abbrev S16384 : Shape := ⟨1, ![16384]⟩
abbrev S256x4096 : Shape := ⟨2, ![256, 4096]⟩
abbrev S1x16384 : Shape := ⟨2, ![1, 16384]⟩
abbrev S8192x16384 : Shape := ⟨2, ![8192, 16384]⟩
abbrev S2048x512 : Shape := ⟨2, ![2048, 512]⟩
abbrev S1024x512 : Shape := ⟨2, ![1024, 512]⟩
abbrev S1x1024 : Shape := ⟨2, ![1, 1024]⟩
abbrev S2048x1024 : Shape := ⟨2, ![2048, 1024]⟩

abbrev nBuf : Space → Nat
  | .hbm => 14
  | .vmem => 17
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S16384x4096, .bf16⟩
  | .hbm, ⟨8, _⟩ => ⟨S16384, .f32⟩
  | .hbm, ⟨9, _⟩ => ⟨S16384, .f32⟩
  | .hbm, ⟨10, _⟩ => ⟨S16384, .f32⟩
  | .hbm, ⟨11, _⟩ => ⟨S1x16384, .f32⟩
  | .hbm, ⟨12, _⟩ => ⟨S8192x4096, .bf16⟩
  | .hbm, ⟨13, _⟩ => ⟨S8192x16384, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .bf16⟩
  | .local _ .vmem, ⟨7, _⟩ => ⟨S256x4096, .bf16⟩
  | .local _ .vmem, ⟨8, _⟩ => ⟨S2048x512, .bf16⟩
  | .local _ .vmem, ⟨9, _⟩ => ⟨S2048x512, .bf16⟩
  | .local _ .vmem, ⟨10, _⟩ => ⟨S1024x512, .bf16⟩
  | .local _ .vmem, ⟨11, _⟩ => ⟨S1024x512, .bf16⟩
  | .local _ .vmem, ⟨12, _⟩ => ⟨S1x1024, .f32⟩
  | .local _ .vmem, ⟨13, _⟩ => ⟨S1x1024, .f32⟩
  | .local _ .vmem, ⟨14, _⟩ => ⟨S2048x1024, .f32⟩
  | .local _ .vmem, ⟨15, _⟩ => ⟨S2048x1024, .f32⟩
  | .local _ .vmem, ⟨16, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![4, 16, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S2048x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S2048x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  packedbf16_S256x4096_S256x4096_0_0 : (Rect.unit (s := S256x4096) ![0, 0] S256x4096.size inb_S256x4096_S256x4096_0_0).PackedRows (EltTy.packing .bf16)
  shapeCasts_S16384_S1x16384 : S16384.ShapeCasts S1x16384
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x512_S1024x512_S2048x1024_1_1_0_0_n_n_wf : DotDims.WF S2048x512 S1024x512 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S16384x4096.size a
  hwx0_1 : ∀ i : grid0.Coords, EltTy.bits .f32 = 32 ∨ (Rect.block (s := S16384x4096) S256x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S16384x4096.size a
  hwx0_2 : ∀ i : grid0.Coords, EltTy.bits .f32 = 32 ∨ (Rect.block (s := S16384x4096) S256x4096.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .bf16 = 32 ∨ (Rect.block (s := S16384x4096) S256x4096.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x512.size a ≤ S8192x4096.size a
  hwx1_0 : ∀ i : grid1.Coords, EltTy.bits .bf16 = 32 ∨ (Rect.block (s := S8192x4096) S2048x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S16384x4096.size a
  hwx1_1 : ∀ i : grid1.Coords, EltTy.bits .bf16 = 32 ∨ (Rect.block (s := S16384x4096) S1024x512.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x1024.size a ≤ S8192x16384.size a
  hwx1_3 : ∀ i : grid1.Coords, EltTy.bits .f32 = 32 ∨ (Rect.block (s := S8192x16384) S2048x1024.size (cc1_transform_3 i) (hinb1_3 i)).WholeWords (EltTy.packing .f32)

variable [Facts₀]

def dot_S2048x512_S1024x512_S2048x1024_1_1_0_0_n_n : DotDims S2048x512 S1024x512 S2048x1024 where
  lhsContracting := [1]
  rhsContracting := [1]
  lhsNonContracting := [0]
  rhsNonContracting := [0]
  lhsBatch := []
  rhsBatch := []
  wf := dot_S2048x512_S1024x512_S2048x1024_1_1_0_0_n_n_wf

abbrev win0_0 : Pipeline.Window sig grid0 :=
  Pipeline.Window.ofSpec (Memref.whole main_arg1) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S2048x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v6) S2048x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S8192x16384 : Shape := ⟨2, ![8192, 16384]⟩
abbrev S1x16384 : Shape := ⟨2, ![1, 16384]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384x4096, .f32⟩
  | .hbm, ⟨3, _⟩ => ⟨S16384, .f32⟩
  | .hbm, ⟨4, _⟩ => ⟨S16384, .f32⟩
  | .hbm, ⟨5, _⟩ => ⟨S16384x4096, .f32⟩
  | .hbm, ⟨6, _⟩ => ⟨S16384, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384, .f32⟩
  | .hbm, ⟨11, _⟩ => ⟨S16384, .f32⟩
  | .hbm, ⟨12, _⟩ => ⟨S16384, .f32⟩
  | .hbm, ⟨13, _⟩ => ⟨S8192x16384, .f32⟩
  | .hbm, ⟨14, _⟩ => ⟨S1x16384, .f32⟩
  | .hbm, ⟨15, _⟩ => ⟨S8192x16384, .f32⟩
  | .hbm, ⟨16, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩

abbrev nD : Nat := 1
abbrev τ : Topo := Topo.v7x

variable {F : FTy → Type} [FloatOps F]

class Facts₀ : Prop where
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.K.Region0.lean ====
/-
  REGION 0 of @main: the first pallas_call (the weight-sampling kernel, pipeline 0), at any float instance and at any
  contents `V` of the TensorCore's buffers when the region is entered.

  The kernel body loads the whole 256×4096 staging blocks of its three inputs (μ, log σ, ε), computes
  trunc (μ + exp (log σ) · ε) entry by entry, and stores the result over the whole staging block of its output.
  So after the body at grid point `t` each input's staging buffer still holds its block, and the output's holds the
  payload of the three input blocks: one store through the whole-shape rectangle at zero offsets, which covers every
  index of the buffer.  The body also loads its output buffer once before the store; that value is not used.
-/
import proofs.«119443_j63247688401633_2_alg».proof.Proof.Gen.Kernel.Launch
import proofs.«119443_j63247688401633_2_alg».proof.Proof.Gen.Kernel.Skeleton
import proofs.«119443_j63247688401633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every load and the store of the body go through: the whole 256×4096 block at zero offsets. -/
abbrev r0 : Rect S256x4096 := Rect.unit (s := S256x4096) ![0, 0] S256x4096.size inb_S256x4096_S256x4096_0_0

/-- Its offsets are zero on both axes. -/
theorem off0 : (![0, 0] : Fin S256x4096.rank → Nat) = fun _ => 0 := by
  funext a; fin_cases a <;> rfl

/-! ## What the body leaves in the output window's buffer -/

/-- Window 3's staging buffer after the body, from the three input blocks: its one store as a piece. -/
def out0_3 (x0 x1 x2 : Vec F S256x4096 .f32) : Vec F S256x4096 .bf16 :=
  View.canon [⟨r0, k0_pay1 (View.ld x0 r0) (View.ld x1 r0) (View.ld x2 r0)⟩]

/-- The store's rectangle is the whole buffer, so it covers every index. -/
theorem cover0_3 (p0 : Vec F S256x4096 .bf16) (y : S256x4096.Idx) :
    ∃ pc ∈ ([⟨r0, p0⟩] : List (View.Piece (Elt F) S256x4096 .bf16)), y ∈ pc.1.set :=
  ⟨_, List.mem_singleton_self _, View.mem_set_unit_zero off0 inb_S256x4096_S256x4096_0_0 y⟩

/-! ## The body's triple -/

set_option maxHeartbeats 1000000 in
/-- The kernel body on whole staging memrefs, the inputs' at contents `x0 x1 x2` and the output's at anything, runs to
    the continuation holding the inputs' as they were and the output's at `out0_3` of the inputs'. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole)
    (x0 : Vec F S256x4096 .f32) (x1 : Vec F S256x4096 .f32) (x2 : Vec F S256x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__sample_weight_kernel i arg1 harg1 arg2 harg2 arg3 harg3 arg4 harg4) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.K.R1Base.lean ====
/-
  The second region (the blocked matrix product) before any run of its body: a window's block at a grid point as read
  off the array the region finds, the two conditions of the body decided over the grid (the last grid coordinate is 0;
  it is 7), where the output window is idle, and the memrefs the body is called with.
-/
import proofs.«119443_j63247688401633_2_alg».proof.Proof.Gen.Kernel.Launch
import proofs.«119443_j63247688401633_2_alg».proof.Proof.Gen.Kernel.Skeleton
import proofs.«119443_j63247688401633_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, decided over the grid -/

/-- "The last grid coordinate is 0": the accumulator is reset at these points. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The last grid coordinate is 7": the output block is stored at these points. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last step of a run of eight the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1024 .f32 := (Memref.whole cc1_stg3_0 : Memref sig .tc .vmem S2048x1024 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S2048x1024 .f32 := Memref.whole cc1_scratch0
abbrev VS1 : View sig .tc .vmem S2048x1024 .f32 := scM1.view

/-- What the region holds besides its windows, with the accumulator's part a parameter `P`: the scoped buffers this
    region never touches (the first region's staging buffers) each whole at some contents, then `P`, beside the
    generator register at some state. -/
def withAcc (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- What the region is handed besides its windows: the accumulator at some contents. -/
theorem PhiA1_eq (c : Dev nD) :
    (Pipeline.ΦA spec1 c : sProp 𝕄) = withAcc c (iprop(∃ d, owns (c : Thread nD τ) scM1 fullShare d)) := by
  unfold Pipeline.ΦA withAcc; rw [scopedRest1_eq]; simp only [scM1, owns_whole]; try rfl

/-- The accumulator's part taken out … -/
theorem withAcc_elim (c : Dev nD) (P : sProp 𝕄) : withAcc c P ⊢ iprop(P ∗ withAcc c iprop(emp)) := by
  unfold withAcc
  iintro ⟨⟨H1, H2, H3, H4, H5, H6, H7, H8, HP⟩, Hg⟩
  isplitl [HP]; · iexact HP
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact Hg

/-- … and any part put back. -/
theorem withAcc_intro (c : Dev nD) (Q : sProp 𝕄) : iprop(Q ∗ withAcc c iprop(emp)) ⊢ withAcc c Q := by
  unfold withAcc
  iintro ⟨HQ, ⟨H1, H2, H3, H4, H5, H6, H7, H8, -⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HQ
  iexact Hg

end Cert.Kernel.Hand

end
-- ==== Proof.K.R1RunA.lean ====
/-
  The body of the blocked matrix product at a point where the last grid coordinate is 0 and not 7: the accumulator is
  reset to zero, the product of the two blocks is added to it, and the output buffer is left as it was. What the
  accumulator ends with is found as the list of the stores the run meets.
-/
import proofs.«119443_j63247688401633_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a resetting point, on whole memrefs: the three inputs at their contents and the output buffer at
    `xi3` come back as they were; the accumulator, entered at anything, ends with the stores `LS0` written. -/
noncomputable def kernelRun1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunB.lean ====
/-
  The body of the blocked matrix product at a point where the last grid coordinate is neither 0 nor 7: the product of
  the two blocks is added to the accumulator the point before left, and the output buffer is left as it was.
-/
import proofs.«119443_j63247688401633_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole memrefs: the three inputs and the output buffer come back as they were; the
    accumulator, entered at `xs0`, ends with the stores `LS0` written. -/
noncomputable def kernelRun1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.K.R1RunC.lean ====
/-
  The body of the blocked matrix product at a point where the last grid coordinate is 7: the product of the two blocks
  is added to the accumulator the point before left, and the accumulator plus the bias row is stored into the output
  buffer.
-/
import proofs.«119443_j63247688401633_2_alg».proof.Proof.K.R1Base

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a storing point, on whole memrefs: the three inputs come back as they were; the output buffer, entered
    at anything, ends with the stores `L3` written; the accumulator, entered at `xs0`, with `LS0`. -/
noncomputable def kernelRun1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.K.Region1.lean ====
/-
  The second region (the blocked matrix product) as a pipeline with its proof data. The body falls in one of three
  cases by the last grid coordinate k: k = 0 resets the accumulator and adds the first product; 0 < k < 7 adds a
  product; k = 7 adds the last product and stores accumulator + bias into the output block. What the accumulator and
  the output block hold after each grid point is defined by recursion on the point (`outsAt1`): a point with k > 0
  starts from what the point before left in the accumulator. The accumulator rides in the region's invariant between
  points (`PhiS`), the output window is idle except at k = 7.
-/
import proofs.«119443_j63247688401633_2_alg».proof.Proof.K.R1RunA
import proofs.«119443_j63247688401633_2_alg».proof.Proof.K.R1RunB
import proofs.«119443_j63247688401633_2_alg».proof.Proof.K.R1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A resetting point's stores cover the accumulator. -/
theorem scover1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S2048x1024.size (by sl_kernel_rfl) y

/-- What a resetting point leaves in the accumulator: its stores read back. -/
def sout1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).1)

/-- A middle point's stores cover the accumulator. -/
theorem scover1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S2048x1024.size (by sl_kernel_rfl) y

/-- What a middle point leaves in the accumulator. -/
def sout1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).1)

/-- A storing point's stores into the output block cover it. -/
theorem cover1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What a storing point leaves in the output block. -/
def out1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- A storing point's stores into the accumulator cover it. -/
theorem scover1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What a storing point leaves in the accumulator. -/
def sout1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-- The output block where no point has stored into it: a placeholder nothing reads (the window is idle there and not
    written back). -/
def idle3 : Vec F S2048x1024 .f32 := VO1_3.read (Elt F) VO1_3.junk

section Data

variable (V : (c : Dev nD) → (b : Ref sig .tc) → Buf (Elt F) ((c : Thread nD τ).loc b))

/-! ## Point by point -/

/-- What the output block (first component) and the accumulator (second) hold after the body at position `n`: the case
    of `n` by its residue mod 8, run on the point's blocks, the accumulator entered at what position `n - 1` left. -/
def outsAt1 (c : Dev nD) : (n : ℕ) → n < cfg1.N → Vec F S2048x1024 .f32 × Vec F S2048x1024 .f32
  | 0, hn => (idle3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (idle3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a resetting point. -/
theorem outsAt1_A (c : Dev nD) (t : Fin cfg1.N) (h0 : t.val % 8 = 0) (h1 : ¬t.val % 8 = 7) :
    outsAt1 V c t.val t.isLt = (idle3, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle point. -/
theorem outsAt1_B (c : Dev nD) (t : Fin cfg1.N) (h0 : ¬t.val % 8 = 0) (h1 : ¬t.val % 8 = 7) :
    outsAt1 V c t.val t.isLt = (idle3, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the region is handed; afterwards the accumulator at what the point before
    left in it. -/
def PhiS (c : Dev nD) : (n : ℕ) → n ≤ cfg1.N → sProp 𝕄
  | 0, _ => Pipeline.ΦA spec1 c
  | n + 1, hn => withAcc c (owns (c : Thread nD τ) scM1 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = withAcc c (owns (c : Thread nD τ) scM1 fullShare ((outsAt1 V c n hn).2)) := rfl

theorem PhiS_pos (c : Dev nD) (n : ℕ) (h : n ≤ cfg1.N) (hz : n ≠ 0) :
    PhiS V c n h = withAcc c (owns (c : Thread nD τ) scM1 fullShare ((outsAt1 V c (n - 1) (by omega)).2)) := by
  cases n with
  | zero => exact absurd rfl hz
  | succ n => rfl

/-! ## The proof data -/

/-- The arrays as the region finds them; after the body at point `t` each input's buffer at its block and the output's
    at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the residue of the point mod 8 says which case it is
    in; the invariant hands the body the accumulator at what the point before left (at anything where the case resets
    it) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_A c _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_A c _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_C c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_B c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the region was handed: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro H
  ihave H' := (withAcc_elim c _) $$ H
  icases H' with ⟨HS0, Hrest⟩
  iapply (withAcc_intro c _)
  isplitl [HS0]
  · iexists _; iexact HS0
  iexact Hrest

end Data

end Cert.Kernel.Hand

end
-- ==== Proof.K.Run.lean ====
/-
  The whole program as a run of three segments — the sampling region, the five host operations (the bias sample, its
  reshape, the cast of x), the matrix-product region — from the launch to the return. The contents of every unscoped
  buffer at each boundary are a fold from the launch memory: a region replaces its windows' arrays by what its
  write-backs leave (`Dat.arrAt … N`), a host stretch applies its operations. The run ends with every unscoped buffer
  at the last fold `W3`; read at the arguments that is the launch memory, read at the result it is what the second
  region's write-backs leave.
-/
import proofs.«119443_j63247688401633_2_alg».proof.Proof.K.Region0
import proofs.«119443_j63247688401633_2_alg».proof.Proof.K.Region1
import proofs.«119443_j63247688401633_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-- The result buffer ends at what the second region's write-backs leave. -/
theorem W3_main_v6 (c : Dev nD) : W3 m ρ c (Proc.devRef .tc main_v6) = (dat1 (V2 m ρ) c).arrAt 3 cfg1.N := W3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

/-- The second region's invariant before the first point, from the scoped rest and the generator register … -/
theorem hin1' (c : Dev nD) :
    (iprop(Pipeline.scopedRest (Ix := Unit) (Name := ℕ) (U := UR sig nD τ) (Lvl := ℕ) (Val := Elt F) spec1 c ∗ ∃ r, prngReg c r) : sProp 𝕄)
      ⊢ (dat1 (V2 m ρ) c).Φ 0 := by
  have h := hin1 (V2 m ρ) c
  unfold Pipeline.ΦA at h
  exact h

/-- … and after the last point back to them. -/
theorem hout1' (c : Dev nD) :
    (dat1 (V2 m ρ) c).Φ (Fin.last cfg1.N)
      ⊢ (iprop(Pipeline.scopedRest (Ix := Unit) (Name := ℕ) (U := UR sig nD τ) (Lvl := ℕ) (Val := Elt F) spec1 c ∗ ∃ r, prngReg c r) : sProp 𝕄) := by
  have h := hout1 (V2 m ρ) c
  unfold Pipeline.ΦA at h
  exact h

set_option backward.isDefEq.respectTransparency.types false in
/-- The sampling region: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hbody c := (body_obligation0 (V0 m ρ) c).loose
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`; its invariant starts as what
    the region is handed and ends giving it back (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hbody c := (body_obligation1 (V2 m ρ) c).loose
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  hin c := by
    rw [show (pdats m ρ 1 c).Φ 0 = (dat1 (V2 m ρ) c).Φ 0 from rfl]
    iintro ⟨Hp, -, Hr⟩
    iapply (hin1' m ρ c)
    isplitl [Hr]; · iexact Hr
    iexact Hp
  hout c := by
    rw [Pipeline.ownSems0_none, show (pdats m ρ 1 c).Φ (Fin.last _) = (dat1 (V2 m ρ) c).Φ (Fin.last cfg1.N) from rfl]
    iintro H
    ihave H' := (hout1' m ρ c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    every unscoped buffer of every core at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result and at the seven arguments: the result buffer ends at what the second region's
    write-backs leave, every argument as launched. -/
theorem run_main : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.Kernel.Hand

end
-- ==== Proof.KI.Region0.lean ====
/-
  REGION 0 of @main: the first pallas_call (the weight-sampling kernel, pipeline 0), at any float instance and at any
  contents `V` of the TensorCore's buffers when the region is entered.

  The kernel body loads the whole 256×4096 staging blocks of its three inputs (μ, log σ, ε), computes
  trunc (μ + exp (log σ) · ε) entry by entry, and stores the result over the whole staging block of its output.
  So after the body at grid point `t` each input's staging buffer still holds its block, and the output's holds the
  payload of the three input blocks: one store through the whole-shape rectangle at zero offsets, which covers every
  index of the buffer.  The body also loads its output buffer once before the store; that value is not used.
-/
import proofs.«119443_j63247688401633_2_alg».proof.Proof.Gen.KernelIdeal.Launch
import proofs.«119443_j63247688401633_2_alg».proof.Proof.Gen.KernelIdeal.Skeleton
import proofs.«119443_j63247688401633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: the window is uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The same for input window 2. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The one rectangle every load and the store of the body go through: the whole 256×4096 block at zero offsets. -/
abbrev r0 : Rect S256x4096 := Rect.unit (s := S256x4096) ![0, 0] S256x4096.size inb_S256x4096_S256x4096_0_0

/-- Its offsets are zero on both axes. -/
theorem off0 : (![0, 0] : Fin S256x4096.rank → Nat) = fun _ => 0 := by
  funext a; fin_cases a <;> rfl

/-! ## What the body leaves in the output window's buffer -/

/-- Window 3's staging buffer after the body, from the three input blocks: its one store as a piece. -/
def out0_3 (x0 x1 x2 : Vec F S256x4096 .f32) : Vec F S256x4096 .bf16 :=
  View.canon [⟨r0, k0_pay1 (View.ld x0 r0) (View.ld x1 r0) (View.ld x2 r0)⟩]

/-- The store's rectangle is the whole buffer, so it covers every index. -/
theorem cover0_3 (p0 : Vec F S256x4096 .bf16) (y : S256x4096.Idx) :
    ∃ pc ∈ ([⟨r0, p0⟩] : List (View.Piece (Elt F) S256x4096 .bf16)), y ∈ pc.1.set :=
  ⟨_, List.mem_singleton_self _, View.mem_set_unit_zero off0 inb_S256x4096_S256x4096_0_0 y⟩

/-! ## The body's triple -/

set_option maxHeartbeats 1000000 in
/-- The kernel body on whole staging memrefs, the inputs' at contents `x0 x1 x2` and the output's at anything, runs to
    the continuation holding the inputs' as they were and the output's at `out0_3` of the inputs'. -/
theorem sound_kernel0 (c : Dev nD) (E : Set ℕ) (i : grid0.Coords) (arg1 : Memref sig .tc .vmem S256x4096 .f32) (harg1 : arg1.IsWhole) (arg2 : Memref sig .tc .vmem S256x4096 .f32) (harg2 : arg2.IsWhole) (arg3 : Memref sig .tc .vmem S256x4096 .f32) (harg3 : arg3.IsWhole) (arg4 : Memref sig .tc .vmem S256x4096 .bf16) (harg4 : arg4.IsWhole)
    (x0 : Vec F S256x4096 .f32) (x1 : Vec F S256x4096 .f32) (x2 : Vec F S256x4096 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__sample_weight_kernel i arg1 harg1 arg2 harg2 arg3 harg3 arg4 harg4) K := by
  simp only [cc0__sample_weight_kernel_eq_skeleton]; unfold cc0__sample_weight_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them (`V`); after the body at point `t`
    each input's buffer at its block and the output's at `out0_3` of the three input blocks; the invariant is the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so `sound_kernel0` applies; the invariant and the
    core's owed tallies pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KI.R1Base.lean ====
/-
  The second region (the blocked matrix product) before any run of its body: a window's block at a grid point as read
  off the array the region finds, the two conditions of the body decided over the grid (the last grid coordinate is 0;
  it is 7), where the output window is idle, and the memrefs the body is called with.
-/
import proofs.«119443_j63247688401633_2_alg».proof.Proof.Gen.KernelIdeal.Launch
import proofs.«119443_j63247688401633_2_alg».proof.Proof.Gen.KernelIdeal.Skeleton
import proofs.«119443_j63247688401633_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (when it is not fetched the
    block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Blocks

/-! ## The body's two conditions, decided over the grid -/

/-- "The last grid coordinate is 0": the accumulator is reset at these points. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 8 = 0 :=
  (by decide +kernel : ∀ t : Fin grid1.N, cond1_0 (grid1.coords t) ↔ t.val % 8 = 0)

/-- "The last grid coordinate is 7": the output block is stored at these points. -/
abbrev cond1_1 (i : grid1.Coords) : Prop := k1_cond2 i = 1#1
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := fun _ => rfl
theorem liveAt1_1 : ∀ t : Fin cfg1.N, cfg1.idle 1 (grid1.coords t) = false := fun _ => rfl
theorem liveAt1_2 : ∀ t : Fin cfg1.N, cfg1.idle 2 (grid1.coords t) = false := fun _ => rfl
/-- Away from the last step of a run of eight the output window is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev VO1_3 : View sig .tc .vmem S2048x1024 .f32 := (Memref.whole cc1_stg3_0 : Memref sig .tc .vmem S2048x1024 .f32).view
abbrev ms1_0 (t : Fin cfg1.N) : Memref sig .tc .vmem S2048x512 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x512 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S2048x1024 .f32 := win1_3.stage (cfg1.slots t 3)
abbrev hs1_3 (t : Fin cfg1.N) : (ms1_3 t).IsWhole := hstage1_3 ((cfg1.slots t 3).cast nbuf1_3)
/-- The accumulator: a whole scoped buffer of the kernel's own, passed beside the windows. -/
abbrev scM1 : Memref sig .tc .vmem S2048x1024 .f32 := Memref.whole cc1_scratch0
abbrev VS1 : View sig .tc .vmem S2048x1024 .f32 := scM1.view

/-- What the region holds besides its windows, with the accumulator's part a parameter `P`: the scoped buffers this
    region never touches (the first region's staging buffers) each whole at some contents, then `P`, beside the
    generator register at some state. -/
def withAcc (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- What the region is handed besides its windows: the accumulator at some contents. -/
theorem PhiA1_eq (c : Dev nD) :
    (Pipeline.ΦA spec1 c : sProp 𝕄) = withAcc c (iprop(∃ d, owns (c : Thread nD τ) scM1 fullShare d)) := by
  unfold Pipeline.ΦA withAcc; rw [scopedRest1_eq]; simp only [scM1, owns_whole]; try rfl

/-- The accumulator's part taken out … -/
theorem withAcc_elim (c : Dev nD) (P : sProp 𝕄) : withAcc c P ⊢ iprop(P ∗ withAcc c iprop(emp)) := by
  unfold withAcc
  iintro ⟨⟨H1, H2, H3, H4, H5, H6, H7, H8, HP⟩, Hg⟩
  isplitl [HP]; · iexact HP
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iempintro
  iexact Hg

/-- … and any part put back. -/
theorem withAcc_intro (c : Dev nD) (Q : sProp 𝕄) : iprop(Q ∗ withAcc c iprop(emp)) ⊢ withAcc c Q := by
  unfold withAcc
  iintro ⟨HQ, ⟨H1, H2, H3, H4, H5, H6, H7, H8, -⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HQ
  iexact Hg

end Cert.KernelIdeal.Hand

end
-- ==== Proof.KI.R1RunA.lean ====
/-
  The body of the blocked matrix product at a point where the last grid coordinate is 0 and not 7: the accumulator is
  reset to zero, the product of the two blocks is added to it, and the output buffer is left as it was. What the
  accumulator ends with is found as the list of the stores the run meets.
-/
import proofs.«119443_j63247688401633_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a resetting point, on whole memrefs: the three inputs at their contents and the output buffer at
    `xi3` come back as they were; the accumulator, entered at anything, ends with the stores `LS0` written. -/
noncomputable def kernelRun1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunB.lean ====
/-
  The body of the blocked matrix product at a point where the last grid coordinate is neither 0 nor 7: the product of
  the two blocks is added to the accumulator the point before left, and the output buffer is left as it was.
-/
import proofs.«119443_j63247688401633_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point, on whole memrefs: the three inputs and the output buffer come back as they were; the
    accumulator, entered at `xs0`, ends with the stores `LS0` written. -/
noncomputable def kernelRun1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) :
    { LS0 : List (View.Piece (Elt F) S2048x1024 .f32) //
      ∀ (xi3 : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.KI.R1RunC.lean ====
/-
  The body of the blocked matrix product at a point where the last grid coordinate is 7: the product of the two blocks
  is added to the accumulator the point before left, and the accumulator plus the bias row is stored into the output
  buffer.
-/
import proofs.«119443_j63247688401633_2_alg».proof.Proof.KI.R1Base

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a storing point, on whole memrefs: the three inputs come back as they were; the output buffer, entered
    at anything, ends with the stores `L3` written; the accumulator, entered at `xs0`, with `LS0`. -/
noncomputable def kernelRun1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    Σ' (L3 : List (View.Piece (Elt F) S2048x1024 .f32)), { LS0 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.KI.Region1.lean ====
/-
  The second region (the blocked matrix product) as a pipeline with its proof data. The body falls in one of three
  cases by the last grid coordinate k: k = 0 resets the accumulator and adds the first product; 0 < k < 7 adds a
  product; k = 7 adds the last product and stores accumulator + bias into the output block. What the accumulator and
  the output block hold after each grid point is defined by recursion on the point (`outsAt1`): a point with k > 0
  starts from what the point before left in the accumulator. The accumulator rides in the region's invariant between
  points (`PhiS`), the output window is idle except at k = 7.
-/
import proofs.«119443_j63247688401633_2_alg».proof.Proof.KI.R1RunA
import proofs.«119443_j63247688401633_2_alg».proof.Proof.KI.R1RunB
import proofs.«119443_j63247688401633_2_alg».proof.Proof.KI.R1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- A resetting point's stores cover the accumulator. -/
theorem scover1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) (y : S2048x1024.Idx) :
    ∃ pc ∈ (kernelRun1_A c i arg3 harg3 arg4 harg4 arg5 harg5 arg6 harg6 arg7 harg7 hc0 hc1 x0 x1 x2).1, y ∈ pc.1.set :=
  View.cover_of_tiledL (kernelRun1_A c i arg3 harg3 arg4 harg4 arg5 harg5 arg6 harg6 arg7 harg7 hc0 hc1 x0 x1 x2).1 S2048x1024.size (by sl_kernel_rfl) y

/-- What a resetting point leaves in the accumulator: its stores read back. -/
def sout1_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) : Vec F S2048x1024 .f32 :=
  VS1.read (Elt F) (VS1.writes (Elt F) VS1.junk (kernelRun1_A c i arg3 harg3 arg4 harg4 arg5 harg5 arg6 harg6 arg7 harg7 hc0 hc1 x0 x1 x2).1)

/-- A middle point's stores cover the accumulator. -/
theorem scover1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_B c i arg3 harg3 arg4 harg4 arg5 harg5 arg6 harg6 arg7 harg7 hc0 hc1 x0 x1 x2 xs0).1, y ∈ pc.1.set :=
  View.cover_of_tiledL (kernelRun1_B c i arg3 harg3 arg4 harg4 arg5 harg5 arg6 harg6 arg7 harg7 hc0 hc1 x0 x1 x2 xs0).1 S2048x1024.size (by sl_kernel_rfl) y

/-- What a middle point leaves in the accumulator. -/
def sout1_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) : Vec F S2048x1024 .f32 :=
  VS1.read (Elt F) (VS1.writes (Elt F) VS1.junk (kernelRun1_B c i arg3 harg3 arg4 harg4 arg5 harg5 arg6 harg6 arg7 harg7 hc0 hc1 x0 x1 x2 xs0).1)

/-- A storing point's stores into the output block cover it. -/
theorem cover1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S2048x1024.size (by sl_kernel_rfl) y

/-- What a storing point leaves in the output block. -/
def out1_C_3 (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- A storing point's stores into the accumulator cover it. -/
theorem scover1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) (y : S2048x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S2048x1024.size (by sl_kernel_rfl) y

/-- What a storing point leaves in the accumulator. -/
def sout1_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) : Vec F S2048x1024 .f32 :=
  VS1.read (Elt F) (VS1.writes (Elt F) VS1.junk (kernelRun1_C c i arg3 harg3 arg4 harg4 arg5 harg5 arg6 harg6 arg7 harg7 hc0 hc1 x0 x1 x2 xs0).2.1)

/-- The output block where no point has stored into it: a placeholder nothing reads (the window is idle there and not
    written back). -/
def idle3 : Vec F S2048x1024 .f32 := VO1_3.read (Elt F) VO1_3.junk

section Data

variable (V : (c : Dev nD) → (b : Ref sig .tc) → Buf (Elt F) ((c : Thread nD τ).loc b))

/-! ## Point by point -/

/-- What the output block (first component) and the accumulator (second) hold after the body at position `n`: the case
    of `n` by its residue mod 8, run on the point's blocks, the accumulator entered at what position `n - 1` left. -/
def outsAt1 (c : Dev nD) : (n : ℕ) → n < cfg1.N → Vec F S2048x1024 .f32 × Vec F S2048x1024 .f32
  | 0, hn => (idle3, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 8 = 0 then
      (idle3, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => (fun h => by (try dsimp only at h); omega) ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 8 = 7 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (idle3, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- At a resetting point. -/
theorem outsAt1_A (c : Dev nD) (t : Fin cfg1.N) (h0 : t.val % 8 = 0) (h1 : ¬t.val % 8 = 7) :
    outsAt1 V c t.val t.isLt = (idle3, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans rfl

/-- At a middle point. -/
theorem outsAt1_B (c : Dev nD) (t : Fin cfg1.N) (h0 : ¬t.val % 8 = 0) (h1 : ¬t.val % 8 = 7) :
    outsAt1 V c t.val t.isLt = (idle3, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a storing point. -/
theorem outsAt1_C (c : Dev nD) (t : Fin cfg1.N) (h0 : ¬t.val % 8 = 0) (h1 : t.val % 8 = 7) :
    outsAt1 V c t.val t.isLt = (out1_C_3 c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: at the start what the region is handed; afterwards the accumulator at what the point before
    left in it. -/
def PhiS (c : Dev nD) : (n : ℕ) → n ≤ cfg1.N → sProp 𝕄
  | 0, _ => Pipeline.ΦA spec1 c
  | n + 1, hn => withAcc c (owns (c : Thread nD τ) scM1 fullShare ((outsAt1 V c n hn).2))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = withAcc c (owns (c : Thread nD τ) scM1 fullShare ((outsAt1 V c n hn).2)) := rfl

theorem PhiS_pos (c : Dev nD) (n : ℕ) (h : n ≤ cfg1.N) (hz : n ≠ 0) :
    PhiS V c n h = withAcc c (owns (c : Thread nD τ) scM1 fullShare ((outsAt1 V c (n - 1) (by omega)).2)) := by
  cases n with
  | zero => exact absurd rfl hz
  | succ n => rfl

/-! ## The proof data -/

/-- The arrays as the region finds them; after the body at point `t` each input's buffer at its block and the output's
    at `outsAt1`; the invariant `PhiS`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the residue of the point mod 8 says which case it is
    in; the invariant hands the body the accumulator at what the point before left (at anything where the case resets
    it) and takes it back at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 512 := lt_of_lt_of_eq t.isLt (show cfg1.N = 512 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 8 = 0
  · have h1 : ¬t.val % 8 = 7 := by omega
    rw [Dat.leavesExact_idle (dat1 V c) 3 t (idleAt1_3 t (fun h => h1 ((hcond1_1 t).mp h))) (noFlush1_3 t (fun h => h1 ((hcond1_1 t).mp h)))]
    rw [outsAt1_A V c t h0 h1]
    unfold sout1_A; (try dsimp only)
    by_cases hz : t.val = 0
    · rw [PhiS_castSucc V c t, PhiS_zero V c _ _ hz, PhiA1_eq]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_A c _ _ _ _ _ _ _ _ _ _ _ _ _ _ _ _)
        iexact Hrest
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
      isplitl [H0]; · iexact H0
      isplitl [H1]; · iexact H1
      isplitl [H2]; · iexact H2
      isplitl [H3]; · iexact H3
      isplitl [HS0]; · iexists _; iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_A c _ _ _ _ _ _ _ _ _ _ _ _ _ _ _ _)
        iexact Hrest
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 8 = 7
    · rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold out1_C_3 sout1_C; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_C c _ _ _ _ _ _ _ _ _ _ _ _ _ _ _ _ _)
        iexact Hrest
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover1_C_3 c _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [outsAt1_B V c t h0 h1]
      unfold sout1_B; (try dsimp only)
      rw [PhiS_castSucc V c t, PhiS_pos V c _ _ hz]
      iintro ⟨HΦ, Ho, ⟨%d0, H0⟩, ⟨%d1, H1⟩, ⟨%d2, H2⟩, ⟨%d3, H3⟩⟩
      ihave HΦ' := (withAcc_elim c _) $$ HΦ
      icases HΦ' with ⟨HS0, Hrest⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest]
      · iapply (withAcc_intro c _)
        isplitl [HS0]
        · unfold owns; iexists _; isplitr
          swap; · iexact HS0
          ipureintro; exact View.read_writes_of_cover _ _ _ _ _ (scover1_B c _ _ _ _ _ _ _ _ _ _ _ _ _ _ _ _ _)
        iexact Hrest
      isplitl [Ho]; · iexact Ho
      isplitl [H0]; · iexact H0
      isplitl [H1]; · iexact H1
      isplitl [H2]; · iexact H2
      iexists _; iexact H3

/-- The body obligation at every point. -/
theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives back what the region was handed: the accumulator's contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 512 := N_1; omega
  rw [show (dat1 V c).Φ (Fin.last cfg1.N) = PhiS V c (Fin.last cfg1.N).val (Nat.le_of_lt_succ (Fin.last cfg1.N).isLt) from rfl,
    PhiS_pos V c _ _ ht, PhiA1_eq]
  iintro H
  ihave H' := (withAcc_elim c _) $$ H
  icases H' with ⟨HS0, Hrest⟩
  iapply (withAcc_intro c _)
  isplitl [HS0]
  · iexists _; iexact HS0
  iexact Hrest

end Data

end Cert.KernelIdeal.Hand

end
-- ==== Proof.KI.Run.lean ====
/-
  The whole program as a run of three segments — the sampling region, the five host operations (the bias sample, its
  reshape, the cast of x), the matrix-product region — from the launch to the return. The contents of every unscoped
  buffer at each boundary are a fold from the launch memory: a region replaces its windows' arrays by what its
  write-backs leave (`Dat.arrAt … N`), a host stretch applies its operations. The run ends with every unscoped buffer
  at the last fold `W3`; read at the arguments that is the launch memory, read at the result it is what the second
  region's write-backs leave.
-/
import proofs.«119443_j63247688401633_2_alg».proof.Proof.KI.Region0
import proofs.«119443_j63247688401633_2_alg».proof.Proof.KI.Region1
import proofs.«119443_j63247688401633_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch (the first region's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At the first region's exit: its arrays at what the pipeline leaves, every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the host operations (the second region's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- At the second region's exit. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### The arguments end as launched -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_writes_sub hostOps1 _ hostOps1_writes (by decide)
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_writes_sub hostOps1 _ hostOps1_writes (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_writes_sub hostOps1 _ hostOps1_writes (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl

theorem W3_main_arg3 (c : Dev nD) : W3 m ρ c (Proc.devRef .tc main_arg3) = m ((c : Thread nD τ).loc main_arg3) :=
  calc W3 m ρ c (Proc.devRef .tc main_arg3)
    _ = W2 m ρ c (Proc.devRef .tc main_arg3) := W3_of_ne m ρ c main_arg3 (by decide)
    _ = W1 m ρ c (Proc.devRef .tc main_arg3) := StableHlo.after_of_writes_sub hostOps1 _ hostOps1_writes (by decide)
    _ = W0 m ρ c (Proc.devRef .tc main_arg3) := W1_of_ne m ρ c main_arg3 (by decide)
    _ = m ((c : Thread nD τ).loc main_arg3) := rfl

theorem W3_main_arg4 (c : Dev nD) : W3 m ρ c (Proc.devRef .tc main_arg4) = m ((c : Thread nD τ).loc main_arg4) :=
  calc W3 m ρ c (Proc.devRef .tc main_arg4)
    _ = W2 m ρ c (Proc.devRef .tc main_arg4) := W3_of_ne m ρ c main_arg4 (by decide)
    _ = W1 m ρ c (Proc.devRef .tc main_arg4) := StableHlo.after_of_writes_sub hostOps1 _ hostOps1_writes (by decide)
    _ = W0 m ρ c (Proc.devRef .tc main_arg4) := W1_of_ne m ρ c main_arg4 (by decide)
    _ = m ((c : Thread nD τ).loc main_arg4) := rfl

theorem W3_main_arg5 (c : Dev nD) : W3 m ρ c (Proc.devRef .tc main_arg5) = m ((c : Thread nD τ).loc main_arg5) :=
  calc W3 m ρ c (Proc.devRef .tc main_arg5)
    _ = W2 m ρ c (Proc.devRef .tc main_arg5) := W3_of_ne m ρ c main_arg5 (by decide)
    _ = W1 m ρ c (Proc.devRef .tc main_arg5) := StableHlo.after_of_writes_sub hostOps1 _ hostOps1_writes (by decide)
    _ = W0 m ρ c (Proc.devRef .tc main_arg5) := (W1_arr m ρ c 2).trans (((dat0 (V0 m ρ) c).arrAt_in 2 rfl _).trans (A_eq0 (V0 m ρ) c 2))
    _ = m ((c : Thread nD τ).loc main_arg5) := rfl

theorem W3_main_arg6 (c : Dev nD) : W3 m ρ c (Proc.devRef .tc main_arg6) = m ((c : Thread nD τ).loc main_arg6) :=
  calc W3 m ρ c (Proc.devRef .tc main_arg6)
    _ = W2 m ρ c (Proc.devRef .tc main_arg6) := W3_of_ne m ρ c main_arg6 (by decide)
    _ = W1 m ρ c (Proc.devRef .tc main_arg6) := StableHlo.after_of_writes_sub hostOps1 _ hostOps1_writes (by decide)
    _ = W0 m ρ c (Proc.devRef .tc main_arg6) := W1_of_ne m ρ c main_arg6 (by decide)
    _ = m ((c : Thread nD τ).loc main_arg6) := rfl

/-- The result buffer ends at what the second region's write-backs leave. -/
theorem W3_main_v6 (c : Dev nD) : W3 m ρ c (Proc.devRef .tc main_v6) = (dat1 (V2 m ρ) c).arrAt 3 cfg1.N := W3_arr m ρ c 3

/-! ## The proof data family and the thread state -/

abbrev adm : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The regions as segments -/

/-- The second region's invariant before the first point, from the scoped rest and the generator register … -/
theorem hin1' (c : Dev nD) :
    (iprop(Pipeline.scopedRest (Ix := Unit) (Name := ℕ) (U := UR sig nD τ) (Lvl := ℕ) (Val := Elt F) spec1 c ∗ ∃ r, prngReg c r) : sProp 𝕄)
      ⊢ (dat1 (V2 m ρ) c).Φ 0 := by
  have h := hin1 (V2 m ρ) c
  unfold Pipeline.ΦA at h
  exact h

/-- … and after the last point back to them. -/
theorem hout1' (c : Dev nD) :
    (dat1 (V2 m ρ) c).Φ (Fin.last cfg1.N)
      ⊢ (iprop(Pipeline.scopedRest (Ix := Unit) (Name := ℕ) (U := UR sig nD τ) (Lvl := ℕ) (Val := Elt F) spec1 c ∗ ∃ r, prngReg c r) : sProp 𝕄) := by
  have h := hout1 (V2 m ρ) c
  unfold Pipeline.ΦA at h
  exact h

set_option backward.isDefEq.respectTransparency.types false in
/-- The sampling region: entered from every unscoped buffer at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hwaits := Pipeline.hwaits_of_owed_zero _ _ _ _ L lv 0 fun _ _ => rfl
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hbody c := (body_obligation0 (V0 m ρ) c).loose
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The matrix-product region: entered from every unscoped buffer at `W2`, left at `W3`; its invariant starts as what
    the region is handed and ends giving it back (`hin1`, `hout1`). -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hwaits := Pipeline.hwaits_of_owed_zero _ _ _ _ L lv 1 fun _ _ => rfl
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hbody c := (body_obligation1 (V2 m ρ) c).loose
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  hin c := by
    rw [show (pdats m ρ 1 c).Φ 0 = (dat1 (V2 m ρ) c).Φ 0 from rfl]
    iintro ⟨Hp, -, Hr⟩
    iapply (hin1' m ρ c)
    isplitl [Hr]; · iexact Hr
    iexact Hp
  hout c := by
    rw [Pipeline.ownSems0_none, show (pdats m ρ 1 c).Φ (Fin.last _) = (dat1 (V2 m ρ) c).Φ (Fin.last cfg1.N) from rfl]
    iintro H
    ihave H' := (hout1' m ρ c) $$ H
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .region (reg0 m ρ),
    .host (hseg hostOps1 hostOps1_sub hostOps1_fresh (W1 m ρ)),
    .region (reg1 m ρ) ]
theorem main_run (c : Dev nD) : main (F := F) c = Pipeline.Seg.run (segs m ρ) := (main_chain c).trans (by chain_rfl)

set_option backward.isDefEq.respectTransparency.types false in
/-- From any memory with zero counters every weakly fair execution of the program terminates, nothing faulting, with
    every unscoped buffer of every core at the last fold `W3`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The run read at the result and at the seven arguments: the result buffer ends at what the second region's
    write-backs leave, every argument as launched. -/
theorem run_main : θ_run defs (onTc (τ := τ) (main (F := F))) ⟨m, fun _ => 0, ρ⟩ (fun r => ∀ c : Dev nD,
      r.2.mem ((c.tc : Thread nD τ).loc main_v6) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun s h c =>
    ⟨(h c _ (mem_uc main_v6 (by decide))).trans (W3_main_v6 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c),
     (h c _ (mem_uc main_arg3 (by decide))).trans (W3_main_arg3 m ρ c),
     (h c _ (mem_uc main_arg4 (by decide))).trans (W3_main_arg4 m ρ c),
     (h c _ (mem_uc main_arg5 (by decide))).trans (W3_main_arg5 m ρ c),
     (h c _ (mem_uc main_arg6 (by decide))).trans (W3_main_arg6 m ρ c)⟩) (run_all m ρ)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => (h c).2) (run_main m ρ)

end Cert.KernelIdeal.Hand

end
-- ==== Proof.Spec.lean ====
/-
  The mathematics both programs compute, stated once over literal shapes and the extended reals.
  A sampled weight  w = μ + exp(log σ) · ε  (entry by entry, for the 16384×4096 weight and for the 16384 bias), and the
  affine map  out[n, o] = (∑ₖ x[n, k] · w[o, k]) + b[o]  over k < 4096.
  The kernel reaches the inner sum in eight consecutive runs of 512 terms added one after the other to a zero start;
  `sum_runs` says that this is the one sum over all 4096 terms (addition of extended reals is associative and
  commutative, so no finiteness is needed).
-/
import Idealize.ShloMosaic.PureOps.Ideal
import Idealize.ShloMosaic.Lib.ValueIdx

noncomputable section

open scoped BigOperators

namespace Cert.Spec

open Idealize.ShloMosaic Idealize.ShloMosaic.ValueIdx

/-- The shapes, as literals (the printed programs' `S8192x4096` … are abbreviations of the same literals). -/
abbrev SX : Shape := ⟨2, ![8192, 4096]⟩
abbrev SW : Shape := ⟨2, ![16384, 4096]⟩
abbrev SB : Shape := ⟨1, ![16384]⟩
abbrev SO : Shape := ⟨2, ![8192, 16384]⟩

/-- One sampled entry: μ + exp(log σ) · ε. -/
def sample (mu ls eps : EReal) : EReal := mu + Ideal.exp ls * eps

/-- The sampled weight matrix, entry by entry. -/
def wsample (mu ls eps : SW.Idx → EReal) : SW.Idx → EReal := fun i => sample (mu i) (ls i) (eps i)

/-- The sampled bias vector, entry by entry. -/
def bsample (mu ls eps : SB.Idx → EReal) : SB.Idx → EReal := fun i => sample (mu i) (ls i) (eps i)

/-- The affine map at row `n` and column `o`: the inner product of row `n` of `x` with row `o` of `w`, plus `b o`. -/
def affineAt (x : SX.Idx → EReal) (w : SW.Idx → EReal) (b : SB.Idx → EReal) (n : Fin 8192) (o : Fin 16384) : EReal :=
  (∑ k : Fin 4096, x (ix2 n k) * w (ix2 o k)) + b (ix1 o)

/-- The affine map as one function of the output index. -/
def affine (x : SX.Idx → EReal) (w : SW.Idx → EReal) (b : SB.Idx → EReal) : SO.Idx → EReal :=
  fun i => affineAt x w b (i 0) (i 1)

theorem affine_ix2 (x : SX.Idx → EReal) (w : SW.Idx → EReal) (b : SB.Idx → EReal) (n : Fin 8192) (o : Fin 16384) :
    affine x w b (ix2 n o) = affineAt x w b n o := rfl

/-- The result both programs compute, from the seven argument arrays. -/
def G (x : SX.Idx → EReal) (wmu wls : SW.Idx → EReal) (bmu bls : SB.Idx → EReal) (weps : SW.Idx → EReal) (beps : SB.Idx → EReal) :
    SO.Idx → EReal :=
  affine x (wsample wmu wls weps) (bsample bmu bls beps)

end Cert.Spec

end
-- ==== Proof.KI.Value0.lean ====
/-
  REGION 0 of @main, read as mathematics at the ideal instance (floats are extended reals, casts are the identity).

  The sampling kernel's payload at an entry of a block is  μ + exp (log σ) · ε  of the three input blocks' entries there
  (the narrowing cast is the identity).  Grid point `t` of the 64 handles rows 256·t … 256·t + 255 of all four 16384×4096
  arrays and every column, and writes its output block back; so what point `t` writes back is block `t` of the sampled
  weight  wsample μ (log σ) ε  of the arrays as the region finds them.  Row `r` lies in the block of point `r / 256`, so
  the 64 blocks cover the array, and after all write-backs the output array IS the sampled weight, at every index.
-/
import proofs.«119443_j63247688401633_2_alg».proof.Proof.KI.Region0
import proofs.«119443_j63247688401633_2_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Value0
variable (V : (c : Dev nD) → (b : Ref sig .tc) → Buf (Elt Ideal) ((c : Thread nD τ).loc b))

/-- The payload at an entry: μ + exp (log σ) · ε of the three blocks' entries there; the cast to the narrower
    float type is the identity on extended reals. -/
theorem pay0_apply (x0 x1 x2 : Vec Ideal S256x4096 .f32) (j : S256x4096.Idx) :
    k0_pay1 x0 x1 x2 j = Cert.Spec.sample (x0 j) (x1 j) (x2 j) := rfl

/-- The printed index maps, decided over the 64 grid points: every window's block at point `t` is block row `t`,
    block column 0. -/
theorem idx_facts0 : ∀ t : Fin cfg0.N,
      win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Every block row is some point's. -/
theorem idx_onto0 : ∀ q : Fin 64, ∃ t : Fin cfg0.N, t.val = q.val :=
  (by decide +kernel : ∀ q : Fin 64, ∃ t : Fin grid0.N, t.val = q.val)

/-- What point `t` writes back is block `t` of the sampled weight of the arrays as the region finds them. -/
theorem flushed0_3_eq (c : Dev nD) (t : Fin cfg0.N) :
    (dat0 (F := Ideal) V c).flushed 3 t
      = ((cfg0.win 3).blk t).view.read (Elt Ideal) (Cert.Spec.wsample (V c main_arg1) (V c main_arg2) (V c main_arg5)) := by
  show (cfg0.win 3).cut (grid0.coords t) ((dat0 (F := Ideal) V c).after 3 t) = _
  rw [after0_3]
  unfold out0_3
  rw [View.canon_unit_zero off0]
  simp only [View.ld_unit_zero (S := S256x4096) off0]
  obtain ⟨e00, e01, e10, e11, e20, e21, e30, e31⟩ := idx_facts0 t
  funext j
  show Cert.Spec.sample (V c main_arg1 (((cfg0.win 0).blk t).view.emb j)) (V c main_arg2 (((cfg0.win 1).blk t).view.emb j)) (V c main_arg5 (((cfg0.win 2).blk t).view.emb j))
      = Cert.Spec.sample (V c main_arg1 (((cfg0.win 3).blk t).view.emb j)) (V c main_arg2 (((cfg0.win 3).blk t).view.emb j)) (V c main_arg5 (((cfg0.win 3).blk t).view.emb j))
  have h0 : ((cfg0.win 0).blk t).view.emb j = ((cfg0.win 3).blk t).view.emb j := by
    funext a; apply Fin.ext
    match a with
    | ⟨0, _⟩ => show win0_0.index t (0 : Fin 2) * 256 + 1 * (j 0).val = win0_3.index t (0 : Fin 2) * 256 + 1 * (j 0).val; omega
    | ⟨1, _⟩ => show win0_0.index t (1 : Fin 2) * 4096 + 1 * (j 1).val = win0_3.index t (1 : Fin 2) * 4096 + 1 * (j 1).val; omega
  have h1 : ((cfg0.win 1).blk t).view.emb j = ((cfg0.win 3).blk t).view.emb j := by
    funext a; apply Fin.ext
    match a with
    | ⟨0, _⟩ => show win0_1.index t (0 : Fin 2) * 256 + 1 * (j 0).val = win0_3.index t (0 : Fin 2) * 256 + 1 * (j 0).val; omega
    | ⟨1, _⟩ => show win0_1.index t (1 : Fin 2) * 4096 + 1 * (j 1).val = win0_3.index t (1 : Fin 2) * 4096 + 1 * (j 1).val; omega
  have h2 : ((cfg0.win 2).blk t).view.emb j = ((cfg0.win 3).blk t).view.emb j := by
    funext a; apply Fin.ext
    match a with
    | ⟨0, _⟩ => show win0_2.index t (0 : Fin 2) * 256 + 1 * (j 0).val = win0_3.index t (0 : Fin 2) * 256 + 1 * (j 0).val; omega
    | ⟨1, _⟩ => show win0_2.index t (1 : Fin 2) * 4096 + 1 * (j 1).val = win0_3.index t (1 : Fin 2) * 4096 + 1 * (j 1).val; omega
  rw [h0, h1, h2]

/-- An index of the array is in point `t`'s block iff each coordinate is in the block's range on its axis. -/
theorem mem_blk0_3 (t : Fin cfg0.N) (i : S16384x4096.Idx) :
    i ∈ ((cfg0.win 3).blk t).view.set ↔ ∀ a : Fin 2, win0_3.index t a * S256x4096.size a ≤ (i a).val ∧ (i a).val < win0_3.index t a * S256x4096.size a + S256x4096.size a := by
  show i ∈ ((View.whole main_v0).slice (win0_3.rect t)).set ↔ _
  rw [View.set_slice_whole, Rect.mem_set_unit]
  exact Iff.rfl

/-- The 64 blocks cover the array: row `r` is in the block of point `r / 256`, and every column is in every block. -/
theorem cover0_3_arr (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := idx_onto0 ⟨(i 0).val / 256, by omega⟩
  have ht' : t.val = (i 0).val / 256 := ht
  obtain ⟨-, -, -, -, -, -, e30, e31⟩ := idx_facts0 t
  refine ⟨t, flush0_3 t, ?_⟩
  rw [mem_blk0_3]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- The output array after all 64 write-backs is the sampled weight of the arrays as the region finds them, at
    every index. -/
theorem final0 (c : Dev nD) :
    (dat0 (F := Ideal) V c).arrAt 3 cfg0.N = Cert.Spec.wsample (V c main_arg1) (V c main_arg2) (V c main_arg5) :=
  (dat0 (F := Ideal) V c).arrAt_eq_of_cover 3 (Cert.Spec.wsample (V c main_arg1) (V c main_arg2) (V c main_arg5))
    (fun t _ => flushed0_3_eq V c t) (cover0_3_arr)

end Value0

end Cert.KernelIdeal.Hand

end
-- ==== Proof.KI.Value1Pieces.lean ====
/-
  What each case of the blocked matrix product's body leaves, as the body's arithmetic.
  The stores a run of the body meets are read back: a middle step and the last step leave in the accumulator the
  accumulator they found plus the product of the two blocks; a resetting step the same with the zero block in place of
  what it found (the reset's store is what the next load reads); the last step leaves in the output block that sum plus
  the bias row.
-/
import proofs.«119443_j63247688401633_2_alg».proof.Proof.KI.Region1
import Idealize.ShloMosaic.Lib.Pipeline.Value
import Idealize.ShloMosaic.Lib.ValueIdx

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem

variable {F : FTy → Type} [FloatOps F]

set_option maxRecDepth 16384

/-- The zero offsets of a whole block, as the constant function. -/
theorem hz2 : (![0, 0] : Fin 2 → Nat) = fun _ => 0 := funext fun a => by fin_cases a <;> rfl

/-- A middle step leaves in the accumulator what it found there plus the product of the two blocks. -/
theorem sout_B (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : ¬cond1_1 i)
    (x0 : Vec F S2048x512 .bf16) (x1 : Vec F S1024x512 .bf16) (x2 : Vec F S1x1024 .f32) (xs0 : Vec F S2048x1024 .f32) :
    sout1_B c i arg3 harg3 arg4 harg4 arg5 harg5 arg6 harg6 arg7 harg7 hc0 hc1 x0 x1 x2 xs0 = k1_pay2 xs0 x0 x1 := by
  unfold sout1_B
  rw [View.read_writes_eq_canon _ _ _ (scover1_B c i arg3 harg3 arg4 harg4 arg5 harg5 arg6 harg6 arg7 harg7 hc0 hc1 x0 x1 x2 xs0)]
  unfold kernelRun1_B
  dsimp only
  rw [View.canon_unit_zero hz2]
  simp only [View.readAt_eq_ld, harg3.read_unread, harg4.read_unread, harg5.read_unread, harg7.read_unread,
    View.ld_unit_zero (S := S2048x1024) hz2, View.ld_unit_zero (S := S2048x512) hz2, View.ld_unit_zero (S := S1024x512) hz2,
    View.ld_unit_zero (S := S1x1024) hz2]

/-- The last step leaves the same in the accumulator. -/
theorem sout_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    sout1_C c i arg3 harg3 arg4 harg4 arg5 harg5 arg6 harg6 arg7 harg7 hc0 hc1 x0 x1 x2 xs0 = k1_pay2 xs0 x0 x1 := by
  unfold sout1_C
  rw [View.read_writes_eq_canon _ _ _ (scover1_C c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S2048x1024) hz2, View.ld_unit_zero (S := S2048x512) hz2, View.ld_unit_zero (S := S1024x512) hz2,
    View.ld_unit_zero (S := S1x1024) hz2]

/-- A resetting step leaves the zero block plus the product: the reset's store is what the step's load reads. -/
theorem sout_A (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : cond1_0 i) (hc1 : ¬cond1_1 i)
    (x0 : Vec F S2048x512 .bf16) (x1 : Vec F S1024x512 .bf16) (x2 : Vec F S1x1024 .f32) :
    sout1_A c i arg3 harg3 arg4 harg4 arg5 harg5 arg6 harg6 arg7 harg7 hc0 hc1 x0 x1 x2 = k1_pay2 k1_pay1 x0 x1 := by
  unfold sout1_A
  rw [View.read_writes_eq_canon _ _ _ (scover1_A c i arg3 harg3 arg4 harg4 arg5 harg5 arg6 harg6 arg7 harg7 hc0 hc1 x0 x1 x2)]
  unfold kernelRun1_A
  dsimp only
  sl_unfold_words
  rw [View.canon_cons_unit_zero (S := S2048x1024) hz2, View.readCov_unit_zero (S := S2048x1024) _ hz2]
  simp only [View.readAt_eq_ld, harg3.read_unread, harg4.read_unread, harg5.read_unread, harg7.read_unread,
    View.ld_unit_zero (S := S2048x1024) hz2, View.ld_unit_zero (S := S2048x512) hz2, View.ld_unit_zero (S := S1024x512) hz2,
    View.ld_unit_zero (S := S1x1024) hz2]

/-- The last step leaves in the output block the new accumulator plus the bias row. -/
theorem out_C (c : Dev nD) (i : grid1.Coords) (arg3 : Memref sig .tc .vmem S2048x512 .bf16) (harg3 : arg3.IsWhole) (arg4 : Memref sig .tc .vmem S1024x512 .bf16) (harg4 : arg4.IsWhole) (arg5 : Memref sig .tc .vmem S1x1024 .f32) (harg5 : arg5.IsWhole) (arg6 : Memref sig .tc .vmem S2048x1024 .f32) (harg6 : arg6.IsWhole) (arg7 : Memref sig .tc .vmem S2048x1024 .f32) (harg7 : arg7.IsWhole) (hc0 : ¬cond1_0 i) (hc1 : cond1_1 i)
    (x0 : Vec F S2048x512 .bf16) (x1 : Vec F S1024x512 .bf16) (x2 : Vec F S1x1024 .f32) (xs0 : Vec F S2048x1024 .f32) :
    out1_C_3 c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz2, View.readCov_unit_zero (S := S2048x1024) _ hz2]
  simp only [View.readAt_eq_ld, harg3.read_unread, harg4.read_unread, harg5.read_unread, harg7.read_unread,
    View.ld_unit_zero (S := S2048x1024) hz2, View.ld_unit_zero (S := S2048x512) hz2, View.ld_unit_zero (S := S1024x512) hz2,
    View.ld_unit_zero (S := S1x1024) hz2]

end Cert.KernelIdeal.Hand

end
-- ==== Proof.KI.Value1Pay.lean ====
/-
  The arithmetic of the blocked matrix product's body, read at an index over the extended reals.
  The body's three stored values are: the zero block; the accumulator plus the product of a 2048×512 block of x with the
  transpose of a 1024×512 block of w (contracted over the 512 columns of both); and the accumulator plus the bias row
  broadcast down the 2048 rows. Over the extended reals the format changes are the identity, so at row p and column q
  these are  0,  a[p, q] + ∑ₖ x[p, k] · w[q, k]  and  a[p, q] + b[0, q].
-/
import proofs.«119443_j63247688401633_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Hand

open Cert.KernelIdeal Cert.KernelIdeal.Gen
open Idealize.ShloMosaic Idealize.ShloMosaic.TcCoe Idealize.ShloMosaic.ValueIdx

/-! ## The operand indices of the block product -/

theorem lhs1_0 (j : S2048x1024.Idx) (q : dot_S2048x512_S1024x512_S2048x1024_1_1_0_0_n_n.contr.Idx) :
    (dot_S2048x512_S1024x512_S2048x1024_1_1_0_0_n_n.lhsIdx j q 0).val = (j 0).val := by
  unfold DotDims.lhsIdx
  rw [dif_neg (show ¬(0 : Fin S2048x512.rank) ∈ dot_S2048x512_S1024x512_S2048x1024_1_1_0_0_n_n.lhsBatch by decide), dif_pos (show (0 : Fin S2048x512.rank) ∈ dot_S2048x512_S1024x512_S2048x1024_1_1_0_0_n_n.lhsNonContracting by decide)]
  rfl
theorem lhs1_1 (j : S2048x1024.Idx) (q : dot_S2048x512_S1024x512_S2048x1024_1_1_0_0_n_n.contr.Idx) :
    (dot_S2048x512_S1024x512_S2048x1024_1_1_0_0_n_n.lhsIdx j q 1).val = (q ⟨0, by decide⟩).val :=
  dot_S2048x512_S1024x512_S2048x1024_1_1_0_0_n_n.lhsIdx_val_of_single rfl j q
theorem rhs1_0 (j : S2048x1024.Idx) (q : dot_S2048x512_S1024x512_S2048x1024_1_1_0_0_n_n.contr.Idx) :
    (dot_S2048x512_S1024x512_S2048x1024_1_1_0_0_n_n.rhsIdx j q 0).val = (j 1).val := by
  unfold DotDims.rhsIdx
  rw [dif_neg (show ¬(0 : Fin S1024x512.rank) ∈ dot_S2048x512_S1024x512_S2048x1024_1_1_0_0_n_n.rhsBatch by decide), dif_pos (show (0 : Fin S1024x512.rank) ∈ dot_S2048x512_S1024x512_S2048x1024_1_1_0_0_n_n.rhsNonContracting by decide)]
  rfl
theorem rhs1_1 (j : S2048x1024.Idx) (q : dot_S2048x512_S1024x512_S2048x1024_1_1_0_0_n_n.contr.Idx) :
    (dot_S2048x512_S1024x512_S2048x1024_1_1_0_0_n_n.rhsIdx j q 1).val = (q ⟨0, by decide⟩).val :=
  dot_S2048x512_S1024x512_S2048x1024_1_1_0_0_n_n.rhsIdx_val_of_single rfl j q

/-- The block product into the zero accumulator, at row `p` and column `q`: the inner product of row `p` of the
    left block with row `q` of the right block. -/
theorem matmul1_at (x : FVec Ideal S2048x512 .bf16) (w : FVec Ideal S1024x512 .bf16) (p : Fin 2048) (q : Fin 1024) :
    FloatOps.matmul dot_S2048x512_S1024x512_S2048x1024_1_1_0_0_n_n none x w (constant (F := Ideal) S2048x1024 .f32 0x00000000#32) (ix2 p q)
      = ∑ kk : Fin 512, x (ix2 p kk) * w (ix2 q kk) := by
  refine (Ideal.matmul_constant_zero_apply dot_S2048x512_S1024x512_S2048x1024_1_1_0_0_n_n none x w (ix2 p q)).trans ?_
  rw [← Equiv.sum_comp (contrEquiv1 dot_S2048x512_S1024x512_S2048x1024_1_1_0_0_n_n 512 rfl rfl).symm]
  refine Finset.sum_congr rfl fun k _ => ?_
  have hk := contrEquiv1_symm_val dot_S2048x512_S1024x512_S2048x1024_1_1_0_0_n_n 512 rfl rfl k
  have el : dot_S2048x512_S1024x512_S2048x1024_1_1_0_0_n_n.lhsIdx (ix2 p q) ((contrEquiv1 dot_S2048x512_S1024x512_S2048x1024_1_1_0_0_n_n 512 rfl rfl).symm k) = ix2 p k := funext fun a => Fin.ext (by
    match a with
    | ⟨0, _⟩ => exact lhs1_0 _ _
    | ⟨1, _⟩ => exact (lhs1_1 _ _).trans hk)
  have er : dot_S2048x512_S1024x512_S2048x1024_1_1_0_0_n_n.rhsIdx (ix2 p q) ((contrEquiv1 dot_S2048x512_S1024x512_S2048x1024_1_1_0_0_n_n 512 rfl rfl).symm k) = ix2 q k := funext fun a => Fin.ext (by
    match a with
    | ⟨0, _⟩ => exact rhs1_0 _ _
    | ⟨1, _⟩ => exact (rhs1_1 _ _).trans hk)
  rw [el, er]

/-! ## The three stored values at an index -/

/-- The reset stores zero. -/
theorem pay1_at (p : Fin 2048) (q : Fin 1024) : k1_pay1 (F := Ideal) (ix2 p q) = 0 := by
  unfold k1_pay1
  simp only [shapeCast_self]
  exact Ideal.ofBits_zero_f32

/-- A step stores the accumulator plus the product of the two blocks. -/
theorem pay2_at (a : Vec Ideal S2048x1024 .f32) (x : Vec Ideal S2048x512 .bf16) (w : Vec Ideal S1024x512 .bf16)
    (p : Fin 2048) (q : Fin 1024) :
    k1_pay2 (F := Ideal) a x w (ix2 p q) = a (ix2 p q) + ∑ kk : Fin 512, x (ix2 p kk) * w (ix2 q kk) := by
  unfold k1_pay2
  simp only [shapeCast_self]
  exact congrArg (a (ix2 p q) + ·) (matmul1_at x w p q)

/-- The last step stores the accumulator plus the bias row. -/
theorem pay3_at (a : Vec Ideal S2048x1024 .f32) (b : Vec Ideal S1x1024 .f32) (p : Fin 2048) (q : Fin 1024) :
    k1_pay3 (F := Ideal) a b (ix2 p q) = a (ix2 p q) + b (ix2 (0 : Fin 1) q) := by
  unfold k1_pay3
  simp only [shapeCast_self]
  refine congrArg (a (ix2 p q) + ·) ?_
  exact broadcastTo_apply b broadcasts_S1x1024_S2048x1024 (ix2 p q) (ix2 (0 : Fin 1) q) (fun a => by
    match a with
    | ⟨0, _⟩ => show (0 : Nat) = if (1 : Nat) = 1 then 0 else _; rw [if_pos rfl]
    | ⟨1, _⟩ => show q.val = if (1024 : Nat) = 1 then 0 else q.val; rw [if_neg (by decide)])

end Cert.KernelIdeal.Hand

end
-- ==== Proof.KI.R1Blocks.lean ====
/-
  REGION 1 of @main (the blocked matrix product): where each window's block sits in its array.

  The grid is 4 × 16 × 8 with coordinates (i, j, k), and point number  t = (i·16 + j)·8 + k,  so  i = t / 128,
  j = (t / 8) % 16,  k = t % 8.  At point t the first operand's block is rows 2048·i … and columns 512·k … of the
  8192×4096 array; the second operand's is rows 1024·j … and columns 512·k … of the 16384×4096 array; the bias block is
  columns 1024·j … of the 1×16384 row; the output block is rows 2048·i … and columns 1024·j … of the 8192×16384 array,
  written back at the last of each run of eight points (k = 7).  An element of a block sits in the array, on each
  axis, at block index × block size + its own coordinate.  Row r and column s of the output lie in the block of
  i = r / 2048, j = s / 1024, so the 64 output blocks cover the array.
-/
import proofs.«119443_j63247688401633_2_alg».proof.Proof.KI.R1Base
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The index maps over the grid -/

/-- The printed index maps, decided over the 512 grid points: the block indices as functions of the point number. -/
theorem idx_facts1 : ∀ t : Fin cfg1.N,
      win1_0.index t (0 : Fin 2) = t.val / 128 ∧ win1_0.index t (1 : Fin 2) = t.val % 8
    ∧ win1_1.index t (0 : Fin 2) = (t.val / 8) % 16 ∧ win1_1.index t (1 : Fin 2) = t.val % 8
    ∧ win1_2.index t (0 : Fin 2) = 0 ∧ win1_2.index t (1 : Fin 2) = (t.val / 8) % 16
    ∧ win1_3.index t (0 : Fin 2) = t.val / 128 ∧ win1_3.index t (1 : Fin 2) = (t.val / 8) % 16 :=
  (by decide +kernel : ∀ t : Fin grid1.N, _)

/-- The last point of every run of eight is some point's number. -/
theorem idx_onto1 : ∀ (q0 : Fin 4) (q1 : Fin 16), ∃ t : Fin cfg1.N, t.val = (q0.val * 16 + q1.val) * 8 + 7 :=
  (by decide +kernel : ∀ (q0 : Fin 4) (q1 : Fin 16), ∃ t : Fin grid1.N, t.val = (q0.val * 16 + q1.val) * 8 + 7)

/-! ## The bounds of the array coordinates -/

/-- A point's number is below 512. -/
theorem pt_lt1 (t : Fin cfg1.N) : t.val < 512 := lt_of_lt_of_eq t.isLt N_1
/-- Row 2048·i + p of the first operand and of the output is below 8192. -/
theorem rowI_lt1 (t : Fin cfg1.N) (p : Fin 2048) : 2048 * (t.val / 128) + p.val < 8192 := by
  have := pt_lt1 t; have := p.isLt; omega
/-- Column 512·k + kk of the two operands is below 4096. -/
theorem colK_lt1 (t : Fin cfg1.N) (kk : Fin 512) : 512 * (t.val % 8) + kk.val < 4096 := by
  have := kk.isLt; omega
/-- Row 1024·j + q of the second operand, and column 1024·j + q of the bias and of the output, is below 16384. -/
theorem rowJ_lt1 (t : Fin cfg1.N) (q : Fin 1024) : 1024 * ((t.val / 8) % 16) + q.val < 16384 := by
  have := q.isLt; omega

/-! ## The input windows' blocks, read at an index -/

section Blocks
variable (V : (c : Dev nD) → (b : Ref sig .tc) → Buf (Elt F) ((c : Thread nD τ).loc b))

/-- Entry (p, kk) of the first operand's block at point t is entry (2048·i + p, 512·k + kk) of its array. -/
theorem iblk1_0_apply (c : Dev nD) (t : Fin cfg1.N) (p : Fin 2048) (kk : Fin 512) :
    iblk1 V c 0 t (ix2 p kk)
      = V c main_v5 (ix2 ⟨2048 * (t.val / 128) + p.val, rowI_lt1 t p⟩ ⟨512 * (t.val % 8) + kk.val, colK_lt1 t kk⟩) := by
  obtain ⟨e00, e01, -⟩ := idx_facts1 t
  show V c main_v5 (((cfg1.win 0).blk t).view.emb (ix2 p kk)) = _
  refine congrArg (V c main_v5) ?_
  funext a; apply Fin.ext
  match a with
  | ⟨0, _⟩ => show win1_0.index t (0 : Fin 2) * 2048 + 1 * p.val = 2048 * (t.val / 128) + p.val; omega
  | ⟨1, _⟩ => show win1_0.index t (1 : Fin 2) * 512 + 1 * kk.val = 512 * (t.val % 8) + kk.val; omega

/-- Entry (q, kk) of the second operand's block at point t is entry (1024·j + q, 512·k + kk) of its array. -/
theorem iblk1_1_apply (c : Dev nD) (t : Fin cfg1.N) (q : Fin 1024) (kk : Fin 512) :
    iblk1 V c 1 t (ix2 q kk)
      = V c main_v0 (ix2 ⟨1024 * ((t.val / 8) % 16) + q.val, rowJ_lt1 t q⟩ ⟨512 * (t.val % 8) + kk.val, colK_lt1 t kk⟩) := by
  obtain ⟨-, -, e10, e11, -⟩ := idx_facts1 t
  show V c main_v0 (((cfg1.win 1).blk t).view.emb (ix2 q kk)) = _
  refine congrArg (V c main_v0) ?_
  funext a; apply Fin.ext
  match a with
  | ⟨0, _⟩ => show win1_1.index t (0 : Fin 2) * 1024 + 1 * q.val = 1024 * ((t.val / 8) % 16) + q.val; omega
  | ⟨1, _⟩ => show win1_1.index t (1 : Fin 2) * 512 + 1 * kk.val = 512 * (t.val % 8) + kk.val; omega

/-- Entry (0, q) of the bias block at point t is entry (0, 1024·j + q) of the bias row. -/
theorem iblk1_2_apply (c : Dev nD) (t : Fin cfg1.N) (q : Fin 1024) :
    iblk1 V c 2 t (ix2 (0 : Fin 1) q)
      = V c main_v4 (ix2 (0 : Fin 1) ⟨1024 * ((t.val / 8) % 16) + q.val, rowJ_lt1 t q⟩) := by
  obtain ⟨-, -, -, -, e20, e21, -⟩ := idx_facts1 t
  show V c main_v4 (((cfg1.win 2).blk t).view.emb (ix2 (0 : Fin 1) q)) = _
  refine congrArg (V c main_v4) ?_
  funext a; apply Fin.ext
  match a with
  | ⟨0, _⟩ => show win1_2.index t (0 : Fin 2) * 1 + 1 * (0 : Fin 1).val = (0 : Fin 1).val; rw [e20]; rfl
  | ⟨1, _⟩ => show win1_2.index t (1 : Fin 2) * 1024 + 1 * q.val = 1024 * ((t.val / 8) % 16) + q.val; omega

end Blocks

/-! ## The output window's block -/

/-- Entry (p, q) of the output block at point t, read off any contents G of the output array, is entry
    (2048·i + p, 1024·j + q) of G. -/
theorem blk1_3_read (t : Fin cfg1.N) (G : S8192x16384.Idx → Elt F .f32) (p : Fin 2048) (q : Fin 1024) :
    ((cfg1.win 3).blk t).view.read (Elt F) G (ix2 p q)
      = G (ix2 ⟨2048 * (t.val / 128) + p.val, rowI_lt1 t p⟩ ⟨1024 * ((t.val / 8) % 16) + q.val, rowJ_lt1 t q⟩) := by
  obtain ⟨-, -, -, -, -, -, e30, e31⟩ := idx_facts1 t
  show G (((cfg1.win 3).blk t).view.emb (ix2 p q)) = _
  refine congrArg G ?_
  funext a; apply Fin.ext
  match a with
  | ⟨0, _⟩ => show win1_3.index t (0 : Fin 2) * 2048 + 1 * p.val = 2048 * (t.val / 128) + p.val; omega
  | ⟨1, _⟩ => show win1_3.index t (1 : Fin 2) * 1024 + 1 * q.val = 1024 * ((t.val / 8) % 16) + q.val; omega

/-- An index of the output array is in point t's block iff each coordinate is in the block's range on its axis. -/
theorem mem_blk1_3 (t : Fin cfg1.N) (i : S8192x16384.Idx) :
    i ∈ ((cfg1.win 3).blk t).view.set ↔ ∀ a : Fin 2, win1_3.index t a * S2048x1024.size a ≤ (i a).val ∧ (i a).val < win1_3.index t a * S2048x1024.size a + S2048x1024.size a := by
  show i ∈ ((View.whole main_v6).slice (win1_3.rect t)).set ↔ _
  rw [View.set_slice_whole, Rect.mem_set_unit]
  exact Iff.rfl

/-- The written-back blocks cover the output array: row r and column s are in the block of the point
    ((r / 2048)·16 + s / 1024)·8 + 7, which writes its block back. -/
theorem cover1_3_arr (i : S8192x16384.Idx) :
    ∃ t : Fin cfg1.N, (cfg1.win 3).flush t = true ∧ i ∈ ((cfg1.win 3).blk t).view.set := by
  have hi0 : (i 0).val < 8192 := (i 0).isLt
  have hi1 : (i 1).val < 16384 := (i 1).isLt
  obtain ⟨t, ht⟩ := idx_onto1 ⟨(i 0).val / 2048, by omega⟩ ⟨(i 1).val / 1024, by omega⟩
  have ht' : t.val = ((i 0).val / 2048 * 16 + (i 1).val / 1024) * 8 + 7 := ht
  obtain ⟨-, -, -, -, -, -, e30, e31⟩ := idx_facts1 t
  refine ⟨t, (flush1_3 t).mpr (by omega), ?_⟩
  rw [mem_blk1_3]
  intro a
  match a with
  | ⟨0, _⟩ => show win1_3.index t (0 : Fin 2) * 2048 ≤ (i 0).val ∧ (i 0).val < win1_3.index t (0 : Fin 2) * 2048 + 2048; omega
  | ⟨1, _⟩ => show win1_3.index t (1 : Fin 2) * 1024 ≤ (i 1).val ∧ (i 1).val < win1_3.index t (1 : Fin 2) * 1024 + 1024; omega

/-! ## The same reads, with the array coordinates named

The forms a sum over the block's coordinates is rewritten with: the array's row and column are variables of the
literal index types, tied to the block's coordinates by equations between natural numbers. -/

section BlocksAt
variable (V : (c : Dev nD) → (b : Ref sig .tc) → Buf (Elt F) ((c : Thread nD τ).loc b))

/-- Entry (p, kk) of the first operand's block at point t is entry (r, k) of its array when r = 2048·i + p and
    k = 512·k' + kk for the point's block coordinates i, k'. -/
theorem iblk1_0_at (c : Dev nD) (t : Fin cfg1.N) (p : Fin 2048) (kk : Fin 512) (r : Fin 8192) (k : Fin 4096)
    (hr : r.val = 2048 * (t.val / 128) + p.val) (hk : k.val = 512 * (t.val % 8) + kk.val) :
    (iblk1 V c 0 t : Vec F S2048x512 .bf16) (ix2 p kk) = V c main_v5 (ix2 r k) := by
  obtain rfl : r = ⟨_, rowI_lt1 t p⟩ := Fin.ext hr
  obtain rfl : k = ⟨_, colK_lt1 t kk⟩ := Fin.ext hk
  exact iblk1_0_apply V c t p kk

/-- Entry (q, kk) of the second operand's block at point t is entry (s, k) of its array when s = 1024·j + q and
    k = 512·k' + kk. -/
theorem iblk1_1_at (c : Dev nD) (t : Fin cfg1.N) (q : Fin 1024) (kk : Fin 512) (s : Fin 16384) (k : Fin 4096)
    (hs : s.val = 1024 * ((t.val / 8) % 16) + q.val) (hk : k.val = 512 * (t.val % 8) + kk.val) :
    (iblk1 V c 1 t : Vec F S1024x512 .bf16) (ix2 q kk) = V c main_v0 (ix2 s k) := by
  obtain rfl : s = ⟨_, rowJ_lt1 t q⟩ := Fin.ext hs
  obtain rfl : k = ⟨_, colK_lt1 t kk⟩ := Fin.ext hk
  exact iblk1_1_apply V c t q kk

/-- Entry (z, q) of the bias block at point t (its one row) is entry (0, s) of the bias row when s = 1024·j + q. -/
theorem iblk1_2_at (c : Dev nD) (t : Fin cfg1.N) (z : Fin 1) (q : Fin 1024) (s : Fin 16384)
    (hs : s.val = 1024 * ((t.val / 8) % 16) + q.val) :
    (iblk1 V c 2 t : Vec F S1x1024 .f32) (ix2 z q) = V c main_v4 (ix2 (0 : Fin 1) s) := by
  obtain rfl : s = ⟨_, rowJ_lt1 t q⟩ := Fin.ext hs
  obtain rfl : z = 0 := Subsingleton.elim _ _
  exact iblk1_2_apply V c t q

end BlocksAt

/-- Entry (p, q) of the output block at point t, read off any contents A of the output array, is entry (r, s) of A
    when r = 2048·i + p and s = 1024·j + q. -/
theorem blk1_3_read_at (c : Dev nD) (A : Buf (Elt F) ((c : Thread nD τ).loc main_v6)) (t : Fin cfg1.N) (p : Fin 2048) (q : Fin 1024)
    (r : Fin 8192) (s : Fin 16384) (hr : r.val = 2048 * (t.val / 128) + p.val) (hs : s.val = 1024 * ((t.val / 8) % 16) + q.val) :
    (((cfg1.win 3).blk t).view.read (Elt F) A : Vec F S2048x1024 .f32) (ix2 p q) = A (ix2 r s) := by
  obtain rfl : r = ⟨_, rowI_lt1 t p⟩ := Fin.ext hr
  obtain rfl : s = ⟨_, rowJ_lt1 t q⟩ := Fin.ext hs
  exact blk1_3_read t A p q

/-- The written-back blocks cover the output array, over the array's own index type. -/
theorem cover1_3 (c : Dev nD) (i : ((cfg1.win 3).arr.view.loc (c.tc : Thread nD τ)).2.ty.Idx) :
    ∃ t : Fin cfg1.N, (cfg1.win 3).flush t = true ∧ i ∈ ((cfg1.win 3).blk t).view.set :=
  cover1_3_arr i

/-- A point that writes the output block back is the last of its run of eight. -/
theorem flush1_3_last (t : Fin cfg1.N) (h : (cfg1.win 3).flush t = true) : t.val % 8 = 7 := (flush1_3 t).mp h

end Cert.KernelIdeal.Hand

end
-- ==== Proof.SumRuns.lean ====
/-
  Eight consecutive runs of 512 terms are the one sum over all 4096 terms.
  Addition of extended reals is associative and commutative, so this is a pure re-indexing of a finite sum along the
  bijection (kb, kk) ↦ kb * 512 + kk between Fin 8 × Fin 512 and Fin 4096; no term needs to be finite.
-/
import Mathlib.Data.EReal.Basic
import Mathlib.Algebra.BigOperators.Fin
import Mathlib.Logic.Equiv.Fin.Basic

open scoped BigOperators

namespace Cert.Spec

/-- `m` consecutive runs of `n` terms are the one sum over all `m * n` terms, in any additive commutative monoid. -/
theorem sum_runs_mul {M : Type*} [AddCommMonoid M] (m n : ℕ) (f : ℕ → M) :
    (∑ kb ∈ Finset.range m, ∑ kk : Fin n, f (kb * n + kk.val)) = ∑ k : Fin (m * n), f k.val := by
  rw [← Fin.sum_univ_eq_sum_range (fun kb => ∑ kk : Fin n, f (kb * n + kk.val)) m,
    ← Finset.sum_product', Finset.univ_product_univ, ← Equiv.sum_comp finProdFinEquiv]
  refine Finset.sum_congr rfl fun x _ => ?_
  rw [finProdFinEquiv_apply_val, Nat.add_comm, Nat.mul_comm]

/-- Eight consecutive runs of 512 terms are the one sum over all 4096 terms. -/
theorem sum_runs (f : ℕ → EReal) :
    (∑ kb ∈ Finset.range 8, ∑ kk : Fin 512, f (kb * 512 + kk.val)) = ∑ k : Fin 4096, f k.val :=
  sum_runs_mul 8 512 f

end Cert.Spec
-- ==== Proof.KI.Value1Acc.lean ====
/-
  The accumulator of the blocked matrix product, point by point, over the extended reals.
  Grid point number t = (i·16 + j)·8 + k works on rows 2048·i … of x, rows 1024·j … of w and columns 512·k … of both.
  After point t the accumulator holds, at (p, q), the sum over the first k + 1 runs of 512 columns of
  x[2048·i + p, ·] · w[1024·j + q, ·]: a point with k = 0 starts from zero, every other point adds its run to what the
  point before left (the same i and j). At k = 7 the eight runs are the whole inner product over the 4096 columns, and
  the output block is that plus the bias at column 1024·j + q.
-/
import proofs.«119443_j63247688401633_2_alg».proof.Proof.KI.Value1Pieces
import proofs.«119443_j63247688401633_2_alg».proof.Proof.KI.Value1Pay
import proofs.«119443_j63247688401633_2_alg».proof.Proof.KI.R1Blocks
import proofs.«119443_j63247688401633_2_alg».proof.Proof.Spec
import proofs.«119443_j63247688401633_2_alg».proof.Proof.SumRuns

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

set_option maxRecDepth 16384

/-! ## The terms of the inner product, numbered by the natural numbers -/

/-- The product term at contraction position `k` of row `r` of `X` against row `s` of `Wt` (zero past the 4096
    columns, where there is no term). -/
def term (X : Cert.Spec.SX.Idx → EReal) (Wt : Cert.Spec.SW.Idx → EReal) (r : Fin 8192) (s : Fin 16384) (k : ℕ) : EReal :=
  if h : k < 4096 then X (ix2 r ⟨k, h⟩) * Wt (ix2 s ⟨k, h⟩) else 0

theorem sum_term (X : Cert.Spec.SX.Idx → EReal) (Wt : Cert.Spec.SW.Idx → EReal) (r : Fin 8192) (s : Fin 16384) :
    ∑ k : Fin 4096, term X Wt r s k.val = ∑ k : Fin 4096, X (ix2 r k) * Wt (ix2 s k) :=
  Finset.sum_congr rfl fun k _ => by unfold term; rw [dif_pos k.isLt]

/-- The row of `x` that row `p` of point `n`'s block is. -/
def rowOf (n : ℕ) (hn : n < cfg1.N) (p : Fin 2048) : Fin 8192 :=
  ⟨2048 * (n / 128) + p.val, by have h : cfg1.N = 512 := N_1; have := p.isLt; omega⟩
/-- The row of `w` (the output column) that row `q` of point `n`'s block is. -/
def colOf (n : ℕ) (hn : n < cfg1.N) (q : Fin 1024) : Fin 16384 :=
  ⟨1024 * ((n / 8) % 16) + q.val, by have := q.isLt; omega⟩

section Acc

variable (V : (c : Dev nD) → (b : Ref sig .tc) → Buf (Elt Ideal) ((c : Thread nD τ).loc b))

/-! ## The three input blocks at a point, at their literal shapes -/

set_option maxHeartbeats 1000000 in
/-- The block of `x` at point `t`. -/
def xb (c : Dev nD) (t : Fin cfg1.N) : Vec Ideal S2048x512 .bf16 := iblk1 V c 0 t
set_option maxHeartbeats 1000000 in
/-- The block of `w` at point `t`. -/
def wb (c : Dev nD) (t : Fin cfg1.N) : Vec Ideal S1024x512 .bf16 := iblk1 V c 1 t
set_option maxHeartbeats 1000000 in
/-- The block of the bias row at point `t`. -/
def bb (c : Dev nD) (t : Fin cfg1.N) : Vec Ideal S1x1024 .f32 := iblk1 V c 2 t

set_option maxHeartbeats 1000000 in
/-- A product of two block entries at point `t` is the term at column `512·(t mod 8) + kk`. -/
theorem blk_term (c : Dev nD) (t : Fin cfg1.N) (p : Fin 2048) (q : Fin 1024) (kk : Fin 512) :
    xb V c t (ix2 p kk) * wb V c t (ix2 q kk)
      = term (V c main_v5) (V c main_v0) (rowOf t.val t.isLt p) (colOf t.val t.isLt q) (t.val % 8 * 512 + kk.val) := by
  have hk : t.val % 8 * 512 + kk.val < 4096 := by have := kk.isLt; omega
  unfold term
  rw [dif_pos hk]
  exact congrArg₂ (fun a b : EReal => a * b)
    (iblk1_0_at V c t p kk (rowOf t.val t.isLt p) ⟨t.val % 8 * 512 + kk.val, hk⟩ rfl (by show t.val % 8 * 512 + kk.val = _; omega))
    (iblk1_1_at V c t q kk (colOf t.val t.isLt q) ⟨t.val % 8 * 512 + kk.val, hk⟩ rfl (by show t.val % 8 * 512 + kk.val = _; omega))

/-! ## One point -/

-- what the cases leave is used through the piece lemmas only, never opened
attribute [local irreducible] sout1_A sout1_B sout1_C out1_C_3 idle3

set_option maxHeartbeats 1000000 in
/-- A resetting point leaves its own run. -/
theorem acc_reset (c : Dev nD) (t : Fin cfg1.N) (h0 : t.val % 8 = 0) (p : Fin 2048) (q : Fin 1024) :
    (outsAt1 V c t.val t.isLt).2 (ix2 p q)
      = ∑ kk : Fin 512, term (V c main_v5) (V c main_v0) (rowOf t.val t.isLt p) (colOf t.val t.isLt q) (t.val % 8 * 512 + kk.val) := by
  have h1 : ¬t.val % 8 = 7 := by omega
  rw [outsAt1_A V c t h0 h1]
  dsimp only
  rw [sout_A, pay2_at, pay1_at, zero_add]
  exact Finset.sum_congr rfl fun kk _ => blk_term V c t p q kk

set_option maxHeartbeats 1000000 in
/-- Every other point leaves what the point before left plus the product of its two blocks. -/
theorem acc_next (c : Dev nD) (t : Fin cfg1.N) (h0 : ¬t.val % 8 = 0) :
    (outsAt1 V c t.val t.isLt).2 = k1_pay2 (F := Ideal) (outsAt1 V c (t.val - 1) (Nat.lt_of_le_of_lt (Nat.sub_le _ _) t.isLt)).2 (xb V c t) (wb V c t) := by
  by_cases h1 : t.val % 8 = 7
  · rw [outsAt1_C V c t h0 h1]
    dsimp only
    rw [sout_C]
    rfl
  · rw [outsAt1_B V c t h0 h1]
    dsimp only
    rw [sout_B]
    rfl

set_option maxHeartbeats 1000000 in
theorem acc_step (c : Dev nD) (t : Fin cfg1.N) (h0 : ¬t.val % 8 = 0) (p : Fin 2048) (q : Fin 1024) :
    (outsAt1 V c t.val t.isLt).2 (ix2 p q)
      = (outsAt1 V c (t.val - 1) (Nat.lt_of_le_of_lt (Nat.sub_le _ _) t.isLt)).2 (ix2 p q)
        + ∑ kk : Fin 512, term (V c main_v5) (V c main_v0) (rowOf t.val t.isLt p) (colOf t.val t.isLt q) (t.val % 8 * 512 + kk.val) := by
  rw [acc_next V c t h0, pay2_at]
  exact congrArg (_ + ·) (Finset.sum_congr rfl fun kk _ => blk_term V c t p q kk)

set_option maxHeartbeats 1000000 in
/-- The last point of a run of eight stores the new accumulator plus the bias row. -/
theorem out_last (c : Dev nD) (t : Fin cfg1.N) (h1 : t.val % 8 = 7) :
    (outsAt1 V c t.val t.isLt).1 = k1_pay3 (F := Ideal) (outsAt1 V c t.val t.isLt).2 (bb V c t) := by
  have h0 : ¬t.val % 8 = 0 := by omega
  rw [acc_next V c t h0, outsAt1_C V c t h0 h1]
  dsimp only
  rw [out_C]
  rfl

/-! ## The accumulator after every point -/

set_option maxHeartbeats 1000000 in
/-- After point `n` the accumulator holds the first `n mod 8 + 1` runs of 512 terms of the inner product of the
    point's row of `x` with the point's row of `w`. -/
theorem acc_eq (c : Dev nD) : ∀ (n : ℕ) (hn : n < cfg1.N) (p : Fin 2048) (q : Fin 1024),
    (outsAt1 V c n hn).2 (ix2 p q)
      = ∑ kb ∈ Finset.range (n % 8 + 1), ∑ kk : Fin 512,
          term (V c main_v5) (V c main_v0) (rowOf n hn p) (colOf n hn q) (kb * 512 + kk.val)
  | 0, hn, p, q => by
    rw [show (0 : ℕ) % 8 + 1 = 1 from rfl, Finset.sum_range_one]
    exact acc_reset V c ⟨0, hn⟩ rfl p q
  | n + 1, hn, p, q => by
    by_cases h0 : (n + 1) % 8 = 0
    · rw [h0, show (0 : ℕ) + 1 = 1 from rfl, Finset.sum_range_one]
      have e := acc_reset V c ⟨n + 1, hn⟩ h0 p q
      rw [show (⟨n + 1, hn⟩ : Fin cfg1.N).val % 8 = 0 from h0] at e
      exact e
    · have e := acc_step V c ⟨n + 1, hn⟩ h0 p q
      have hr : rowOf n (Nat.lt_of_succ_lt hn) p = rowOf (n + 1) hn p := Fin.ext (by show 2048 * (n / 128) + p.val = 2048 * ((n + 1) / 128) + p.val; omega)
      have hc : colOf n (Nat.lt_of_succ_lt hn) q = colOf (n + 1) hn q := Fin.ext (by show 1024 * ((n / 8) % 16) + q.val = 1024 * (((n + 1) / 8) % 16) + q.val; omega)
      have ih := acc_eq c n (Nat.lt_of_succ_lt hn) p q
      rw [hr, hc] at ih
      rw [show (n + 1) % 8 + 1 = (n % 8 + 1) + 1 by omega, Finset.sum_range_succ, ← ih,
        show n % 8 + 1 = (n + 1) % 8 by omega]
      exact e

/-! ## The output block at a storing point -/

set_option maxHeartbeats 1000000 in
/-- At the last point of a run of eight the output block holds, at (p, q), the whole inner product of the point's row of
    `x` with the point's row of `w`, plus the bias at the point's column. -/
theorem out_eq (c : Dev nD) (t : Fin cfg1.N) (h1 : t.val % 8 = 7) (p : Fin 2048) (q : Fin 1024) :
    (outsAt1 V c t.val t.isLt).1 (ix2 p q)
      = Cert.Spec.affineAt (V c main_v5) (V c main_v0) (fun j => V c main_v4 (ix2 (0 : Fin 1) (j 0)))
          (rowOf t.val t.isLt p) (colOf t.val t.isLt q) := by
  rw [out_last V c t h1, pay3_at, acc_eq V c t.val t.isLt p q, show t.val % 8 + 1 = 8 by omega,
    Cert.Spec.sum_runs (term (V c main_v5) (V c main_v0) (rowOf t.val t.isLt p) (colOf t.val t.isLt q)), sum_term]
  unfold Cert.Spec.affineAt
  exact congrArg (_ + ·) (iblk1_2_at V c t 0 q (colOf t.val t.isLt q) rfl)

end Acc

end Cert.KernelIdeal.Hand

end
-- ==== Proof.KI.Value1.lean ====
/-
  The value of the second region: the result array is the affine map of the arrays the region finds.
  The output window is written back only at the last point of each run of eight, and there its block holds, at (p, q),
  the whole inner product of row 2048·i + p of x with row 1024·j + q of w plus the bias at column 1024·j + q — the
  affine map at the array index the block's (p, q) is. The storing points' blocks tile the 8192×16384 array, so the
  array ends holding the affine map everywhere.
-/
import proofs.«119443_j63247688401633_2_alg».proof.Proof.KI.Value1Acc

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

set_option maxRecDepth 16384

section Final

variable (V : (c : Dev nD) → (b : Ref sig .tc) → Buf (Elt Ideal) ((c : Thread nD τ).loc b))

set_option maxHeartbeats 1000000 in
/-- The affine map of the arrays the region finds, as contents of the result array. -/
def result1 (c : Dev nD) : Buf (Elt Ideal) ((c : Thread nD τ).loc main_v6) :=
  Cert.Spec.affine (V c main_v5) (V c main_v0) (fun j => V c main_v4 (ix2 (0 : Fin 1) (j 0)))

set_option maxHeartbeats 1000000 in
/-- What a storing point writes back is its block of the affine map. -/
theorem flushed_eq1 (c : Dev nD) (t : Fin cfg1.N) (hf : (cfg1.win 3).flush t = true) :
    (dat1 (F := Ideal) V c).flushed 3 t = ((cfg1.win 3).blk t).view.read (Elt Ideal) (result1 V c) := by
  have h1 : t.val % 8 = 7 := flush1_3_last t hf
  show (cfg1.win 3).cut (grid1.coords t) ((dat1 (F := Ideal) V c).after 3 t) = _
  rw [after1_3]
  funext j
  obtain ⟨p, q, rfl⟩ : ∃ (p : Fin 2048) (q : Fin 1024), j = (ix2 p q : S2048x1024.Idx) :=
    ⟨j 0, j 1, eq_ix2 (n0 := 2048) (n1 := 1024) j⟩
  refine (out_eq V c t h1 p q).trans ?_
  exact (blk1_3_read_at c (result1 V c) t p q (rowOf t.val t.isLt p) (colOf t.val t.isLt q) rfl rfl).symm

set_option maxHeartbeats 1000000 in
/-- The result array after the region. -/
theorem final1 (V : (c : Dev nD) → (b : Ref sig .tc) → Buf (Elt Ideal) ((c : Thread nD τ).loc b)) (c : Dev nD) :
    (dat1 (F := Ideal) V c).arrAt 3 cfg1.N
      = Cert.Spec.affine (V c main_v5) (V c main_v0) (fun j => V c main_v4 (ix2 (0 : Fin 1) (j 0))) :=
  (dat1 (F := Ideal) V c).arrAt_eq_of_cover 3 (result1 V c) (flushed_eq1 V c) (cover1_3 c)

end Final

end Cert.KernelIdeal.Hand

end
-- ==== Proof.KI.HostVals.lean ====
/-
  The five host operations between the two regions, read as mathematics at the ideal instance (floats are extended
  reals, casts are the identity), over any contents W of the buffers before them:

    v1 = exp b_logσ,  v2 = v1 · b_ε,  v3 = b_μ + v2   (entry by entry over the 16384 bias entries),
    v4 = v3 reshaped from 16384 entries to one row of 16384,  v5 = x cast to the narrower float type.

  So afterwards v5 is x (the cast is the identity), entry (0, o) of v4 is the sampled bias μ + exp (log σ) · ε at o
  (the one row of v4 lists v3 in order), and every buffer none of the five writes — the first region's output and all
  seven arguments — is as it was.
-/
import proofs.«119443_j63247688401633_2_alg».proof.Proof.Gen.KernelIdeal.Launch
import proofs.«119443_j63247688401633_2_alg».proof.Proof.Gen.KernelIdeal.Regions
import proofs.«119443_j63247688401633_2_alg».proof.Proof.Spec
import Idealize.ShloMosaic.Lib.StableHlo.Run
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.ShloMosaic.StableHlo

variable (W : Valuation τ sig (Elt Ideal))

/-- The buffers' contents after the five host operations. -/
abbrev afterHost1 : Valuation τ sig (Elt Ideal) := StableHlo.after (hostOps1 (F := Ideal)) W

/-- The narrowed copy of x is x: the cast is the identity on extended reals. -/
theorem afterHost1_v5 :
    (afterHost1 W (Proc.devRef .tc main_v5) : S8192x4096.Idx → EReal) = W (Proc.devRef .tc main_arg0) := by
  show StableHlo.after (hostOps1 (F := Ideal)) W (Proc.devRef .tc main_v5) = _
  after_results
  rfl

/-- The reshaped bias, as the five operations' term over W. -/
theorem afterHost1_v4_eq :
    (afterHost1 W (Proc.devRef .tc main_v4) : S1x16384.Idx → EReal)
      = shapeCast (s := S16384) (α := EReal) S1x16384
          (addf (F := Ideal) (s := S16384) (φ := .f32) (W (Proc.devRef .tc main_arg3))
            (mulf (F := Ideal) (s := S16384) (φ := .f32) (Host.exp (F := Ideal) (s := S16384) (φ := .f32) (W (Proc.devRef .tc main_arg4))) (W (Proc.devRef .tc main_arg6))))
          shapeCasts_S16384_S1x16384 := by
  show StableHlo.after (hostOps1 (F := Ideal)) W (Proc.devRef .tc main_v4) = _
  after_results
  rfl

/-- Entry (0, o) of the reshaped bias is the sampled bias at o. -/
theorem afterHost1_v4_apply (o : Fin 16384) :
    (afterHost1 W (Proc.devRef .tc main_v4) : S1x16384.Idx → EReal) (ix2 (0 : Fin 1) o)
      = Cert.Spec.sample ((W (Proc.devRef .tc main_arg3) : S16384.Idx → EReal) (ix1 o))
          ((W (Proc.devRef .tc main_arg4) : S16384.Idx → EReal) (ix1 o)) ((W (Proc.devRef .tc main_arg6) : S16384.Idx → EReal) (ix1 o)) := by
  rw [afterHost1_v4_eq]
  rw [shapeCast_apply _ _ (ix2 (0 : Fin 1) o) (ix1 o) (by
    rw [Shape.rowMajor_val_one, Shape.rowMajor_val_two]
    show o.val = (0 : Fin 1).val * 16384 + o.val
    simp)]
  rfl

/-- The same, as one equation of functions of the bias index. -/
theorem afterHost1_v4_bsample :
    (fun j : Cert.Spec.SB.Idx => (afterHost1 W (Proc.devRef .tc main_v4) : S1x16384.Idx → EReal) (ix2 (0 : Fin 1) (j 0)))
      = Cert.Spec.bsample (W (Proc.devRef .tc main_arg3)) (W (Proc.devRef .tc main_arg4)) (W (Proc.devRef .tc main_arg6)) := by
  funext j
  obtain ⟨o, rfl⟩ : ∃ o : Fin 16384, j = ix1 o := ⟨j 0, eq_ix1 j⟩
  exact afterHost1_v4_apply W o

/-- A buffer none of the five operations writes is as it was. -/
theorem afterHost1_of (r : Ref sig .tc) (h : r ∉ hostOps1_W) :
    afterHost1 W (Proc.devRef .tc r) = W (Proc.devRef .tc r) :=
  StableHlo.after_of_writes_sub (hostOps1 (F := Ideal)) _ hostOps1_writes h

theorem afterHost1_v0 : afterHost1 W (Proc.devRef .tc main_v0) = W (Proc.devRef .tc main_v0) := afterHost1_of W main_v0 (by decide)
theorem afterHost1_arg0 : afterHost1 W (Proc.devRef .tc main_arg0) = W (Proc.devRef .tc main_arg0) := afterHost1_of W main_arg0 (by decide)
theorem afterHost1_arg1 : afterHost1 W (Proc.devRef .tc main_arg1) = W (Proc.devRef .tc main_arg1) := afterHost1_of W main_arg1 (by decide)
theorem afterHost1_arg2 : afterHost1 W (Proc.devRef .tc main_arg2) = W (Proc.devRef .tc main_arg2) := afterHost1_of W main_arg2 (by decide)
theorem afterHost1_arg3 : afterHost1 W (Proc.devRef .tc main_arg3) = W (Proc.devRef .tc main_arg3) := afterHost1_of W main_arg3 (by decide)
theorem afterHost1_arg4 : afterHost1 W (Proc.devRef .tc main_arg4) = W (Proc.devRef .tc main_arg4) := afterHost1_of W main_arg4 (by decide)
theorem afterHost1_arg5 : afterHost1 W (Proc.devRef .tc main_arg5) = W (Proc.devRef .tc main_arg5) := afterHost1_of W main_arg5 (by decide)
theorem afterHost1_arg6 : afterHost1 W (Proc.devRef .tc main_arg6) = W (Proc.devRef .tc main_arg6) := afterHost1_of W main_arg6 (by decide)

end Cert.KernelIdeal.Hand

end
-- ==== Proof.KI.Final.lean ====
/-
  The idealized kernel's result as one function of its seven arguments. The second region leaves
  out[n, o] = (∑ₖ x'[n, k] · w'[o, k]) + b'[0, o] of the three arrays it finds; x' is the host's cast of x (the
  identity on extended reals), w' is what the first region left — the sampled weight μ + exp(log σ) · ε at every index —
  and b' is the host's sampled bias reshaped to one row. So the result is `Cert.Spec.G` of the arguments.
-/
import proofs.«119443_j63247688401633_2_alg».proof.Proof.KI.Run
import proofs.«119443_j63247688401633_2_alg».proof.Proof.KI.Value0
import proofs.«119443_j63247688401633_2_alg».proof.Proof.KI.Value1
import proofs.«119443_j63247688401633_2_alg».proof.Proof.KI.HostVals

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable (m : (ℓ : Loc nD τ sig) → Buf (Elt Ideal) ℓ) (ρ : Dev nD → PrngReg)

/-- The x operand the second region finds is the argument x. -/
theorem V2_v5 (c : Dev nD) : (V2 m ρ c main_v5 : S8192x4096.Idx → EReal) = m ((c.tc : Thread nD τ).loc main_arg0) :=
  (afterHost1_v5 (W1 m ρ c)).trans ((W1_of_ne m ρ c main_arg0 (by decide)).trans rfl)

/-- The weight operand the second region finds is the sampled weight. -/
theorem V2_v0 (c : Dev nD) : (V2 m ρ c main_v0 : S16384x4096.Idx → EReal)
    = Cert.Spec.wsample (m ((c.tc : Thread nD τ).loc main_arg1)) (m ((c.tc : Thread nD τ).loc main_arg2)) (m ((c.tc : Thread nD τ).loc main_arg5)) :=
  (afterHost1_v0 (W1 m ρ c)).trans ((W1_arr m ρ c 3).trans (final0 (V0 m ρ) c))

/-- The bias row the second region finds is the sampled bias. -/
theorem V2_v4 (c : Dev nD) : (fun j : Cert.Spec.SB.Idx => (V2 m ρ c main_v4 : S1x16384.Idx → EReal) (ix2 (0 : Fin 1) (j 0)))
    = Cert.Spec.bsample (m ((c.tc : Thread nD τ).loc main_arg3)) (m ((c.tc : Thread nD τ).loc main_arg4)) (m ((c.tc : Thread nD τ).loc main_arg6)) := by
  refine (afterHost1_v4_bsample (W1 m ρ c)).trans ?_
  rw [show W1 m ρ c (Proc.devRef .tc main_arg3) = m ((c.tc : Thread nD τ).loc main_arg3) from (W1_of_ne m ρ c main_arg3 (by decide)).trans rfl,
    show W1 m ρ c (Proc.devRef .tc main_arg4) = m ((c.tc : Thread nD τ).loc main_arg4) from (W1_of_ne m ρ c main_arg4 (by decide)).trans rfl,
    show W1 m ρ c (Proc.devRef .tc main_arg6) = m ((c.tc : Thread nD τ).loc main_arg6) from (W1_of_ne m ρ c main_arg6 (by decide)).trans rfl]

/-- What the second region's write-backs leave in the result array is `G` of the seven arguments. -/
theorem result_eq (c : Dev nD) : (dat1 (F := Ideal) (V2 m ρ) c).arrAt 3 cfg1.N
    = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  rw [final1 (V2 m ρ) c, V2_v5 m ρ c, V2_v0 m ρ c, V2_v4 m ρ c]
  rfl

/-- The idealized kernel runs, ends with its result at `G` of its arguments, and leaves the arguments unchanged. -/
theorem run_G : θ_run (defs (F := Ideal)) (onTc (τ := τ) (main (F := Ideal))) ⟨m, fun _ => 0, ρ⟩ (fun r => ∀ c : Dev nD,
      r.2.mem ((c.tc : Thread nD τ).loc main_v6) = Cert.Spec.G (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (run_main (F := Ideal) m ρ)

end Cert.KernelIdeal.Hand

end
-- ==== Proof.RefValue.lean ====
/-
  The reference program's result is the specification's `G` of its seven argument arrays.
  The reference computes  dot_general(x, wμ + exp(w log σ) · wε)  contracted over the second axis of both operands, plus the
  bias  bμ + exp(b log σ) · bε  broadcast along the rows. Read at an output index (n, o) this is
  (∑ₖ x[n, k] · (wμ[o, k] + exp(wls[o, k]) · wε[o, k])) + (bμ[o] + exp(bls[o]) · bε[o]),  which is `G` at (n, o) term by
  term: no algebraic law is used, only the identification of the composed index maps with the coordinate constructors.
-/
import proofs.«119443_j63247688401633_2_alg».proof.Defs
import proofs.«119443_j63247688401633_2_alg».proof.Proof.Spec
import proofs.«119443_j63247688401633_2_alg».proof.Proof.Gen.ReferenceIdeal.Read
import proofs.«119443_j63247688401633_2_alg».proof.Proof.Gen.Pre_finite_inputs

noncomputable section

namespace Cert.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The composed index maps are the coordinate constructors -/

/-- The left operand of the contraction is read at row `n`, column `k`. -/
theorem lidx_ix2 (n : Fin 8192) (o : Fin 16384) (k : Fin 4096) : lidx_main_v6 (ix2 n o) k = ix2 n k :=
  funext fun a => Fin.ext (by match a with | ⟨0, _⟩ => rfl | ⟨1, _⟩ => rfl)

/-- The right operand of the contraction is read at row `o`, column `k`. -/
theorem ridx_ix2 (n : Fin 8192) (o : Fin 16384) (k : Fin 4096) : ridx_main_v6 (ix2 n o) k = ix2 o k :=
  funext fun a => Fin.ext (by match a with | ⟨0, _⟩ => rfl | ⟨1, _⟩ => rfl)

/-- The two broadcasts read the bias at `o`. -/
theorem bidx_ix1 (n : Fin 8192) (o : Fin 16384) : idx_main_v7 (idx_main_v8 (ix2 n o)) = ix1 o :=
  funext fun a => Fin.ext (by match a with | ⟨0, _⟩ => rfl)

/-! ## The reference's term is `G` -/

/-- The term the reference's run leaves in its result, at the extended reals, is `G` of the seven arguments. -/
theorem ref_eq (x0 : FVec Ideal S8192x4096 .f32) (x1 x2 : FVec Ideal S16384x4096 .f32) (x3 x4 : FVec Ideal S16384 .f32)
    (x5 : FVec Ideal S16384x4096 .f32) (x6 : FVec Ideal S16384 .f32) :
    addf (F := Ideal) (Host.dotGeneral dot_S8192x4096_S16384x4096_S8192x16384_1_1_0_0_n_n none (x0) (addf (x1) (mulf (Host.exp (x2)) (x5))))
        (broadcastInDim S8192x16384 ![0, 1] bcast_S1x16384_S8192x16384_0_1
          (broadcastInDim S1x16384 ![1] bcast_S16384_S1x16384_1 (addf (x3) (mulf (Host.exp (x4)) (x6)))))
      = Cert.Spec.G x0 x1 x2 x3 x4 x5 x6 := by
  rw [val_main_v9_eq]
  funext i
  obtain ⟨n, o, rfl⟩ : ∃ (n : Fin 8192) (o : Fin 16384), i = ix2 n o := ⟨i 0, i 1, eq_ix2 i⟩
  rw [val_main_v9_apply, val_main_v6_apply, val_main_v8_apply, val_main_v7_apply, val_main_v5_apply, val_main_v4_apply,
    val_main_v3_apply, bidx_ix1]
  simp only [val_main_v2_apply, val_main_v1_apply, val_main_v0_apply, lidx_ix2, ridx_ix2, Ideal.addf_def, Ideal.mulf_def,
    Ideal.hostUnary_exp_def, Cert.Spec.G, Cert.Spec.affine, Cert.Spec.affineAt, Cert.Spec.wsample, Cert.Spec.bsample,
    Cert.Spec.sample]

/-! ## The reference's run, with its result named by `G` -/

/-- Every weakly fair execution of the reference terminates with its result at `G` of the launch contents of the seven
    arguments, and the arguments unchanged. -/
theorem run_G (m' : (ℓ : Loc nD τ sig) → Buf (Elt Ideal) ℓ) (ρ' : Dev nD → PrngReg) :
    θ_run (defs (F := Ideal)) (onTc (τ := τ) (main (F := Ideal))) ⟨m', fun _ => 0, ρ'⟩ fun r => ∀ c : Dev nD,
      r.2.mem ((c.tc : Thread nD τ).loc main_v9)
        = Cert.Spec.G (m' ((c.tc : Thread nD τ).loc main_arg0)) (m' ((c.tc : Thread nD τ).loc main_arg1)) (m' ((c.tc : Thread nD τ).loc main_arg2))
            (m' ((c.tc : Thread nD τ).loc main_arg3)) (m' ((c.tc : Thread nD τ).loc main_arg4)) (m' ((c.tc : Thread nD τ).loc main_arg5)) (m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun _ h c => ⟨(h c).1.trans (ref_eq _ _ _ _ _ _ _), (h c).2⟩)
    (Cert.ReferenceIdeal.Value.run (F := Ideal) m' ρ')

/-- The reference's half of the comparison: from a memory agreeing with the kernel's on the seven arguments, the reference
    ends with its result at `G` of the KERNEL's arguments, and its own arguments unchanged. -/
theorem run_G_agree (m : (ℓ : Loc Cert.KernelIdeal.nD Cert.KernelIdeal.τ Cert.KernelIdeal.sig) → Buf (Elt Ideal) ℓ)
    (m' : (ℓ : Loc nD τ sig) → Buf (Elt Ideal) ℓ) (ρ' : Dev nD → PrngReg)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    θ_run (defs (F := Ideal)) (onTc (τ := τ) (main (F := Ideal))) ⟨m', fun _ => 0, ρ'⟩ fun r => ∀ c : Dev nD,
      r.2.mem ((c.tc : Thread nD τ).loc main_v9)
        = Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  (θ_run defs _ _).mono (fun _ h c => ⟨by
      rw [(h c).1, (hagree c).1, (hagree c).2.1, (hagree c).2.2.1, (hagree c).2.2.2.1, (hagree c).2.2.2.2.1,
        (hagree c).2.2.2.2.2.1, (hagree c).2.2.2.2.2.2], (h c).2⟩)
    (run_G m' ρ')

/-- The reference runs and leaves its seven arguments unchanged: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.RefValue

end
-- ==== Proof.lean ====
/-
  The certificate of a Bayesian linear layer computed by two kernels against its one-line reference.
  The kernel samples the weight w = μ + exp(log σ) · ε once, in a first grid of 64 row blocks, samples the bias and
  casts x on the host, and then forms out = x · wᵀ + b in a second grid of 4 × 16 × 8 blocks, the eight steps along
  the contracted axis accumulating 512-term partial inner products in a scratch block that is zeroed at the first
  step and stored, with the bias row added, at the last. The reference forms the same w and b and takes one
  contraction over all 4096 terms. Over the extended reals the casts are the identity and a sum may be regrouped
  freely, so both results are `Cert.Spec.G` of the seven arguments; no finiteness of the inputs is used.
  The three frames: each program runs to the end from any memory, faults nowhere and leaves its arguments as
  launched — for the two kernel programs by the run of their three segments (region, host operations, region), for the
  reference by its run with the result dropped. The idealization rewrote nothing, so `preserves` is trivial.
-/
import proofs.«119443_j63247688401633_2_alg».proof.Defs
import proofs.«119443_j63247688401633_2_alg».proof.Proof.Gen.Kernel
import proofs.«119443_j63247688401633_2_alg».proof.Proof.Gen.KernelIdeal
import proofs.«119443_j63247688401633_2_alg».proof.Proof.Gen.ReferenceIdeal
import proofs.«119443_j63247688401633_2_alg».proof.Proof.Gen.Pre_finite_inputs
import proofs.«119443_j63247688401633_2_alg».proof.Proof.K.Run
import proofs.«119443_j63247688401633_2_alg».proof.Proof.KI.Final
import proofs.«119443_j63247688401633_2_alg».proof.Proof.RefValue

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

/-- Both idealized programs end with their results at `G` of the kernel's arguments. -/
theorem algebraic : @Cert.algebraic_KernelIdeal_ReferenceIdeal Cert.KernelIdeal.Gen.facts Cert.ReferenceIdeal.Gen.facts Cert.Pre_finite_inputs.Gen.facts :=
  fun m ρ m' ρ' _ hagree => ⟨_, Cert.KernelIdeal.Hand.run_G m ρ, Cert.RefValue.run_G_agree m m' ρ' hagree⟩

theorem claim : Cert.Claim := ⟨Cert.Kernel.Gen.facts, Cert.KernelIdeal.Gen.facts, Cert.ReferenceIdeal.Gen.facts, Cert.Pre_finite_inputs.Gen.facts,
  frame_k, frame_ki, Cert.RefValue.frame_ri, trivial, algebraic⟩

end Cert.Proof

end
